-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x128x256 : Shape := ⟨4, ![16, 128, 128, 256]⟩
abbrev S256x32 : Shape := ⟨2, ![256, 32]⟩
abbrev S32 : Shape := ⟨1, ![32]⟩
abbrev S256x256 : Shape := ⟨2, ![256, 256]⟩
abbrev S256 : Shape := ⟨1, ![256]⟩
abbrev S_ : Shape := ⟨0, ![]⟩

class Facts : Prop where
  bcast_S_S16x128x128x256 : S_.BroadcastsInDim S16x128x128x256 (![] : Fin 0 → Fin S16x128x128x256.rank)
  reducesTo_S16x128x128x256_S_d0_1_2_3 : S16x128x128x256.ReducesTo [0, 1, 2, 3] S_
  h_S_ : 0 < S_.numel
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S32 .f32) (main_arg5 : FVec F S256x256 .f32) (main_arg6 : FVec F S256 .f32) (main_v13 : IVec S_ 1) (main_v16 : IVec S256x32 1) : IVec S_ 1 :=
  let main_c_5 : IVec S_ 1 := constantI S_ 1 1#1
  let main_v17 : IVec S_ 1 := (fun x v => Host.reduce IntOp.andi x v reducesTo_S256x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S16x128x128x256 .f32) (main_arg1 : FVec F S256x32 .f32) (main_arg2 : FVec F S32 .f32) (main_arg3 : FVec F S256x32 .f32) (main_arg4 : FVec F S32 .f32) (main_arg5 : FVec F S256x256 .f32) (main_arg6 : FVec F S256 .f32) : IVec S_ 1 :=
  let main_v0 : FVec F S16x128x128x256 .f32 := Host.absf main_arg0
  let main_cst : FVec F S_ .f32 := constant S_ .f32 0x7F800000#32
  let main_v1 : FVec F S16x128x128x256 .f32 := broadcastInDim S16x128x128x256 ![] bcast_S_S16x128x128x256 main_cst
  let main_v2 : IVec S16x128x128x256 1 := cmpf .olt main_v0 main_v1
  let main_c : IVec S_ 1 := constantI S_ 1 1#1
  let main_v3 : IVec S_ 1 := (fun x v => Host.reduce IntOp.andi x v reducesTo_S16x128x128x256_S_d0_1_2_3 h_S_) main_v2 main_c
  let main_v4 : FVec F S256x32 .f32 := Host.absf main_arg1
  let main_cst_0 : FVec F S_ .f32 := constant S_ .f32 0x7F800000#32
  let main_v5 : FVec F S256x32 .f32 := broadcastInDim S256x32 ![] bcast_S_S256x32 main_cst_0
  let main_v6 : IVec S256x32 1 := cmpf .olt main_v4 main_v5
  let main_c_1 : IVec S_ 1 := constantI S_ 1 1#1
  let main_v7 : IVec S_ 1 := (fun x v => Host.reduce IntOp.andi x v reducesTo_S256x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S256x32 .f32 := Host.absf main_arg3
  let main_cst_4 : FVec F S_ .f32 := constant S_ .f32 0x7F800000#32
  let main_v15 : FVec F S256x32 .f32 := broadcastInDim S256x32 ![] bcast_S_S256x32 main_cst_4
  let main_v16 : IVec S256x32 1 := cmpf .olt main_v14 main_v15
  fn_part1 (F := F) main_arg4 main_arg5 main_arg6 main_v13 main_v16
-- ==== Kernel.lean ====
abbrev S16x128x128x256 : Shape := ⟨4, ![16, 128, 128, 256]⟩
abbrev S256x32 : Shape := ⟨2, ![256, 32]⟩
abbrev S32 : Shape := ⟨1, ![32]⟩
abbrev S256x256 : Shape := ⟨2, ![256, 256]⟩
abbrev S256 : Shape := ⟨1, ![256]⟩
abbrev S_ : Shape := ⟨0, ![]⟩
abbrev S256x512 : Shape := ⟨2, ![256, 512]⟩
abbrev S1 : Shape := ⟨1, ![1]⟩
abbrev S1x512 : Shape := ⟨2, ![1, 512]⟩
abbrev S1x32 : Shape := ⟨2, ![1, 32]⟩
abbrev S1x256 : Shape := ⟨2, ![1, 256]⟩
abbrev S1x32x128x256 : Shape := ⟨4, ![1, 32, 128, 256]⟩
abbrev S32x128x256 : Shape := ⟨3, ![32, 128, 256]⟩
abbrev S4096x256 : Shape := ⟨2, ![4096, 256]⟩
abbrev S4096x512 : Shape := ⟨2, ![4096, 512]⟩
abbrev S512 : Shape := ⟨1, ![512]⟩
abbrev S4096x32 : Shape := ⟨2, ![4096, 32]⟩
abbrev S32x128x32 : Shape := ⟨3, ![32, 128, 32]⟩
abbrev S32x128x128 : Shape := ⟨3, ![32, 128, 128]⟩
abbrev S32x128 : Shape := ⟨2, ![32, 128]⟩
abbrev S32x128x1 : Shape := ⟨3, ![32, 128, 1]⟩

abbrev nBuf : Space → Nat
  | .hbm => 36
  | .vmem => 6
  | .smem => 0
  | _ => 0

abbrev bufTy : (tb : Table) → Fin (tcTables nBuf tb) → BufTy
  | .hbm, ⟨0, _⟩ => ⟨S16x128x128x256, .f32⟩
  | .hbm, ⟨1, _⟩ => ⟨S256x32, .f32⟩
  | .hbm, ⟨2, _⟩ => ⟨S32, .f32⟩
  | .hbm, ⟨3, _⟩ => ⟨S256x32, .f32⟩
  | .hbm, ⟨4, _⟩ => ⟨S32, .f32⟩
  | .hbm, ⟨5, _⟩ => ⟨S256x256, .f32⟩
  | .hbm, ⟨6, _⟩ => ⟨S256, .f32⟩
  | .hbm, ⟨7, _⟩ => ⟨S256x32, .bf16⟩
  | .hbm, ⟨8, _⟩ => ⟨S256x32, .bf16⟩
  | .hbm, ⟨9, _⟩ => ⟨S256x256, .bf16⟩
  | .hbm, ⟨10, _⟩ => ⟨S_, .bf16⟩
  | .hbm, ⟨11, _⟩ => ⟨S256x512, .bf16⟩
  | .hbm, ⟨12, _⟩ => ⟨S_, .i32⟩
  | .hbm, ⟨13, _⟩ => ⟨S1, .i32⟩
  | .hbm, ⟨14, _⟩ => ⟨S256x512, .bf16⟩
  | .hbm, ⟨15, _⟩ => ⟨S_, .i32⟩
  | .hbm, ⟨16, _⟩ => ⟨S1, .i32⟩
  | .hbm, ⟨17, _⟩ => ⟨S256x512, .bf16⟩
  | .hbm, ⟨18, _⟩ => ⟨S_, .i32⟩
  | .hbm, ⟨19, _⟩ => ⟨S1, .i32⟩
  | .hbm, ⟨20, _⟩ => ⟨S256x512, .bf16⟩
  | .hbm, ⟨21, _⟩ => ⟨S_, .f32⟩
  | .hbm, ⟨22, _⟩ => ⟨S1x512, .f32⟩
  | .hbm, ⟨23, _⟩ => ⟨S1x32, .f32⟩
  | .hbm, ⟨24, _⟩ => ⟨S_, .i32⟩
  | .hbm, ⟨25, _⟩ => ⟨S1, .i32⟩
  | .hbm, ⟨26, _⟩ => ⟨S1x512, .f32⟩
  | .hbm, ⟨27, _⟩ => ⟨S1x32, .f32⟩
  | .hbm, ⟨28, _⟩ => ⟨S_, .i32⟩
  | .hbm, ⟨29, _⟩ => ⟨S1, .i32⟩
  | .hbm, ⟨30, _⟩ => ⟨S1x512, .f32⟩
  | .hbm, ⟨31, _⟩ => ⟨S1x256, .f32⟩
  | .hbm, ⟨32, _⟩ => ⟨S_, .i32⟩
  | .hbm, ⟨33, _⟩ => ⟨S1, .i32⟩
  | .hbm, ⟨34, _⟩ => ⟨S1x512, .f32⟩
  | .hbm, ⟨35, _⟩ => ⟨S16x128x128x256, .f32⟩
  | .local _ .vmem, ⟨0, _⟩ => ⟨S1x32x128x256, .f32⟩
  | .local _ .vmem, ⟨1, _⟩ => ⟨S1x32x128x256, .f32⟩
  | .local _ .vmem, ⟨2, _⟩ => ⟨S256x512, .bf16⟩
  | .local _ .vmem, ⟨3, _⟩ => ⟨S1x512, .f32⟩
  | .local _ .vmem, ⟨4, _⟩ => ⟨S1x32x128x256, .f32⟩
  | .local _ .vmem, ⟨5, _⟩ => ⟨S1x32x128x256, .f32⟩
  | _, _ => ⟨S16x128x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x32x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  bcast_S_S256x512 : S_.BroadcastsInDim S256x512 (![] : Fin 0 → Fin S256x512.rank)
  bcast_S_S1 : S_.BroadcastsInDim S1 (![] : Fin 0 → Fin S1.rank)
  bcast_S_S1x512 : S_.BroadcastsInDim S1x512 (![] : Fin 0 → Fin S1x512.rank)
  shapeCasts_S32_S1x32 : S32.ShapeCasts S1x32
  shapeCasts_S256_S1x256 : S256.ShapeCasts S1x256
  inb_S1x32x128x256_S1x32x128x256_0_0_0_0 : ∀ a, (![0, 0, 0, 0] : Fin 4 → Nat) a + S1x32x128x256.size a ≤ S1x32x128x256.size a
  h_S1x32x128x256 : 0 < S1x32x128x256.numel
  shapeCasts_S1x32x128x256_S32x128x256 : S1x32x128x256.ShapeCasts S32x128x256
  shapeCasts_S32x128x256_S4096x256 : S32x128x256.ShapeCasts S4096x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S512 : S1x512.ShapeCasts S512
  shapeCasts_S512_S1x512 : S512.ShapeCasts S1x512
  broadcasts_S1x512_S4096x512 : S1x512.Broadcasts S4096x512
  slices_S4096x512_o0_0_S4096x32 : S4096x512.Slices ![0, 0] S4096x32
  slices_S4096x512_o0_128_S4096x32 : S4096x512.Slices ![0, 128] S4096x32
  slices_S4096x512_o0_256_S4096x256 : S4096x512.Slices ![0, 256] S4096x256
  shapeCasts_S4096x32_S32x128x32 : S4096x32.ShapeCasts S32x128x32
  shapeCasts_S4096x256_S32x128x256 : S4096x256.ShapeCasts S32x128x256
  reduces_S32x128x128_S32x128 : S32x128x128.Reduces [2] S32x128
  shapeCasts_S32x128_S32x128x1 : S32x128.ShapeCasts S32x128x1
  broadcasts_S32x128x1_S32x128x128 : S32x128x1.Broadcasts S32x128x128
  shapeCasts_S32x128x256_S1x32x128x256 : S32x128x256.ShapeCasts S1x32x128x256
  scatter_S256x512_S1_S256x32_01_n_1_0_wf : ScatterDims.WF S256x512 S1 S256x32 [0, 1] [] [1] 0
  scatter_S256x512_S1_S256x256_01_n_1_0_wf : ScatterDims.WF S256x512 S1 S256x256 [0, 1] [] [1] 0
  scatter_S1x512_S1_S1x32_01_n_1_0_wf : ScatterDims.WF S1x512 S1 S1x32 [0, 1] [] [1] 0
  scatter_S1x512_S1_S1x256_01_n_1_0_wf : ScatterDims.WF S1x512 S1 S1x256 [0, 1] [] [1] 0
  dot_S4096x256_S256x512_S4096x512_1_0_0_1_n_n_wf : DotDims.WF S4096x256 S256x512 S4096x512 [1] [0] [0] [1] [] []
  dot_S32x128x32_S32x128x32_S32x128x128_2_2_1_1_0_0_wf : DotDims.WF S32x128x32 S32x128x32 S32x128x128 [2] [2] [1] [1] [0] [0]
  dot_S32x128x128_S32x128x256_S32x128x256_2_1_1_2_0_0_wf : DotDims.WF S32x128x128 S32x128x256 S32x128x256 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x128x256.size a ≤ S16x128x128x256.size a
  hwx0_0 : ∀ i : grid0.Coords, EltTy.bits .f32 = 32 ∨ (Rect.block (s := S16x128x128x256) S1x32x128x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .bf16 = 32 ∨ (Rect.block (s := S256x512) S256x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x128x256.size a ≤ S16x128x128x256.size a
  hwx0_3 : ∀ i : grid0.Coords, EltTy.bits .f32 = 32 ∨ (Rect.block (s := S16x128x128x256) S1x32x128x256.size (cc0_transform_3 i) (hinb0_3 i)).WholeWords (EltTy.packing .f32)

variable [Facts₀]

def scatter_S256x512_S1_S256x32_01_n_1_0 : ScatterDims S256x512 S1 S256x32 where
  updateWindowDims := [0, 1]
  insertedWindowDims := []
  scatterDimsToOperandDims := [1]
  indexVectorDim := 0
  wf := scatter_S256x512_S1_S256x32_01_n_1_0_wf
def scatter_S256x512_S1_S256x256_01_n_1_0 : ScatterDims S256x512 S1 S256x256 where
  updateWindowDims := [0, 1]
  insertedWindowDims := []
  scatterDimsToOperandDims := [1]
  indexVectorDim := 0
  wf := scatter_S256x512_S1_S256x256_01_n_1_0_wf
def scatter_S1x512_S1_S1x32_01_n_1_0 : ScatterDims S1x512 S1 S1x32 where
  updateWindowDims := [0, 1]
  insertedWindowDims := []
  scatterDimsToOperandDims := [1]
  indexVectorDim := 0
  wf := scatter_S1x512_S1_S1x32_01_n_1_0_wf
def scatter_S1x512_S1_S1x256_01_n_1_0 : ScatterDims S1x512 S1 S1x256 where
  updateWindowDims := [0, 1]
  insertedWindowDims := []
  scatterDimsToOperandDims := [1]
  indexVectorDim := 0
  wf := scatter_S1x512_S1_S1x256_01_n_1_0_wf
def dot_S4096x256_S256x512_S4096x512_1_0_0_1_n_n : DotDims S4096x256 S256x512 S4096x512 where
  lhsContracting := [1]
  rhsContracting := [0]
  lhsNonContracting := [0]
  rhsNonContracting := [1]
  lhsBatch := []
  rhsBatch := []
  wf := dot_S4096x256_S256x512_S4096x512_1_0_0_1_n_n_wf
def dot_S32x128x32_S32x128x32_S32x128x128_2_2_1_1_0_0 : DotDims S32x128x32 S32x128x32 S32x128x128 where
  lhsContracting := [2]
  rhsContracting := [2]
  lhsNonContracting := [1]
  rhsNonContracting := [1]
  lhsBatch := [0]
  rhsBatch := [0]
  wf := dot_S32x128x32_S32x128x32_S32x128x128_2_2_1_1_0_0_wf
def dot_S32x128x128_S32x128x256_S32x128x256_2_1_1_2_0_0 : DotDims S32x128x128 S32x128x256 S32x128x256 where
  lhsContracting := [2]
  rhsContracting := [1]
  lhsNonContracting := [1]
  rhsNonContracting := [2]
  lhsBatch := [0]
  rhsBatch := [0]
  wf := dot_S32x128x128_S32x128x256_S32x128x256_2_1_1_2_0_0_wf

abbrev win0_0 : Pipeline.Window sig grid0 :=
  Pipeline.Window.ofSpec (Memref.whole main_arg0) S1x32x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x32x128x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x128x128x256 : Shape := ⟨4, ![16, 128, 128, 256]⟩
abbrev S256x32 : Shape := ⟨2, ![256, 32]⟩
abbrev S32 : Shape := ⟨1, ![32]⟩
abbrev S256x256 : Shape := ⟨2, ![256, 256]⟩
abbrev S256 : Shape := ⟨1, ![256]⟩
abbrev S16x128x128x32 : Shape := ⟨4, ![16, 128, 128, 32]⟩
abbrev S1x1x1x32 : Shape := ⟨4, ![1, 1, 1, 32]⟩
abbrev S1x1x1x256 : Shape := ⟨4, ![1, 1, 1, 256]⟩
abbrev S16x128x128x128 : Shape := ⟨4, ![16, 128, 128, 128]⟩
abbrev S_ : Shape := ⟨0, ![]⟩
abbrev S16x128x128 : Shape := ⟨3, ![16, 128, 128]⟩
abbrev S16x128x128x1 : Shape := ⟨4, ![16, 128, 128, 1]⟩

abbrev nBuf : Space → Nat
  | .hbm => 35
  | .vmem => 0
  | .smem => 0
  | _ => 0

abbrev bufTy : (tb : Table) → Fin (tcTables nBuf tb) → BufTy
  | .hbm, ⟨0, _⟩ => ⟨S16x128x128x256, .f32⟩
  | .hbm, ⟨1, _⟩ => ⟨S256x32, .f32⟩
  | .hbm, ⟨2, _⟩ => ⟨S32, .f32⟩
  | .hbm, ⟨3, _⟩ => ⟨S256x32, .f32⟩
  | .hbm, ⟨4, _⟩ => ⟨S32, .f32⟩
  | .hbm, ⟨5, _⟩ => ⟨S256x256, .f32⟩
  | .hbm, ⟨6, _⟩ => ⟨S256, .f32⟩
  | .hbm, ⟨7, _⟩ => ⟨S16x128x128x32, .f32⟩
  | .hbm, ⟨8, _⟩ => ⟨S1x1x1x32, .f32⟩
  | .hbm, ⟨9, _⟩ => ⟨S16x128x128x32, .f32⟩
  | .hbm, ⟨10, _⟩ => ⟨S16x128x128x32, .f32⟩
  | .hbm, ⟨11, _⟩ => ⟨S16x128x128x32, .f32⟩
  | .hbm, ⟨12, _⟩ => ⟨S1x1x1x32, .f32⟩
  | .hbm, ⟨13, _⟩ => ⟨S16x128x128x32, .f32⟩
  | .hbm, ⟨14, _⟩ => ⟨S16x128x128x32, .f32⟩
  | .hbm, ⟨15, _⟩ => ⟨S16x128x128x256, .f32⟩
  | .hbm, ⟨16, _⟩ => ⟨S1x1x1x256, .f32⟩
  | .hbm, ⟨17, _⟩ => ⟨S16x128x128x256, .f32⟩
  | .hbm, ⟨18, _⟩ => ⟨S16x128x128x256, .f32⟩
  | .hbm, ⟨19, _⟩ => ⟨S16x128x128x128, .f32⟩
  | .hbm, ⟨20, _⟩ => ⟨S_, .f32⟩
  | .hbm, ⟨21, _⟩ => ⟨S16x128x128, .f32⟩
  | .hbm, ⟨22, _⟩ => ⟨S_, .f32⟩
  | .hbm, ⟨23, _⟩ => ⟨S16x128x128, .f32⟩
  | .hbm, ⟨24, _⟩ => ⟨S16x128x128, .f32⟩
  | .hbm, ⟨25, _⟩ => ⟨S16x128x128x1, .f32⟩
  | .hbm, ⟨26, _⟩ => ⟨S16x128x128x128, .f32⟩
  | .hbm, ⟨27, _⟩ => ⟨S16x128x128x128, .f32⟩
  | .hbm, ⟨28, _⟩ => ⟨S16x128x128x128, .f32⟩
  | .hbm, ⟨29, _⟩ => ⟨S_, .f32⟩
  | .hbm, ⟨30, _⟩ => ⟨S16x128x128, .f32⟩
  | .hbm, ⟨31, _⟩ => ⟨S16x128x128x1, .f32⟩
  | .hbm, ⟨32, _⟩ => ⟨S16x128x128x128, .f32⟩
  | .hbm, ⟨33, _⟩ => ⟨S16x128x128x128, .f32⟩
  | .hbm, ⟨34, _⟩ => ⟨S16x128x128x256, .f32⟩
  | _, _ => ⟨S16x128x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]

class Facts₀ : Prop where
  bcast_S32_S1x1x1x32_3 : S32.BroadcastsInDim S1x1x1x32 (![3] : Fin 1 → Fin S1x1x1x32.rank)
  bcast_S1x1x1x32_S16x128x128x32_0_1_2_3 : S1x1x1x32.BroadcastsInDim S16x128x128x32 (![0, 1, 2, 3] : Fin 4 → Fin S16x128x128x32.rank)
  bcast_S256_S1x1x1x256_3 : S256.BroadcastsInDim S1x1x1x256 (![3] : Fin 1 → Fin S1x1x1x256.rank)
  bcast_S1x1x1x256_S16x128x128x256_0_1_2_3 : S1x1x1x256.BroadcastsInDim S16x128x128x256 (![0, 1, 2, 3] : Fin 4 → Fin S16x128x128x256.rank)
  reducesTo_S16x128x128x128_S16x128x128_d3 : S16x128x128x128.ReducesTo [3] S16x128x128
  h_S_ : 0 < S_.numel
  bcast_S_S16x128x128 : S_.BroadcastsInDim S16x128x128 (![] : Fin 0 → Fin S16x128x128.rank)
  bcast_S16x128x128_S16x128x128x1_0_1_2 : S16x128x128.BroadcastsInDim S16x128x128x1 (![0, 1, 2] : Fin 3 → Fin S16x128x128x1.rank)
  bcast_S16x128x128x1_S16x128x128x128_0_1_2_3 : S16x128x128x1.BroadcastsInDim S16x128x128x128 (![0, 1, 2, 3] : Fin 4 → Fin S16x128x128x128.rank)
  dot_S16x128x128x256_S256x32_S16x128x128x32_3_0_012_1_n_n_wf : DotDims.WF S16x128x128x256 S256x32 S16x128x128x32 [3] [0] [0, 1, 2] [1] [] []
  dot_S16x128x128x256_S256x256_S16x128x128x256_3_0_012_1_n_n_wf : DotDims.WF S16x128x128x256 S256x256 S16x128x128x256 [3] [0] [0, 1, 2] [1] [] []
  dot_S16x128x128x32_S16x128x128x32_S16x128x128x128_3_3_2_2_01_01_wf : DotDims.WF S16x128x128x32 S16x128x128x32 S16x128x128x128 [3] [3] [2] [2] [0, 1] [0, 1]
  dot_S16x128x128x128_S16x128x128x256_S16x128x128x256_3_2_2_3_01_01_wf : DotDims.WF S16x128x128x128 S16x128x128x256 S16x128x128x256 [3] [2] [2] [3] [0, 1] [0, 1]

variable [Facts₀]

def dot_S16x128x128x256_S256x32_S16x128x128x32_3_0_012_1_n_n : DotDims S16x128x128x256 S256x32 S16x128x128x32 where
  lhsContracting := [3]
  rhsContracting := [0]
  lhsNonContracting := [0, 1, 2]
  rhsNonContracting := [1]
  lhsBatch := []
  rhsBatch := []
  wf := dot_S16x128x128x256_S256x32_S16x128x128x32_3_0_012_1_n_n_wf
def dot_S16x128x128x256_S256x256_S16x128x128x256_3_0_012_1_n_n : DotDims S16x128x128x256 S256x256 S16x128x128x256 where
  lhsContracting := [3]
  rhsContracting := [0]
  lhsNonContracting := [0, 1, 2]
  rhsNonContracting := [1]
  lhsBatch := []
  rhsBatch := []
  wf := dot_S16x128x128x256_S256x256_S16x128x128x256_3_0_012_1_n_n_wf
def dot_S16x128x128x32_S16x128x128x32_S16x128x128x128_3_3_2_2_01_01 : DotDims S16x128x128x32 S16x128x128x32 S16x128x128x128 where
  lhsContracting := [3]
  rhsContracting := [3]
  lhsNonContracting := [2]
  rhsNonContracting := [2]
  lhsBatch := [0, 1]
  rhsBatch := [0, 1]
  wf := dot_S16x128x128x32_S16x128x128x32_S16x128x128x128_3_3_2_2_01_01_wf
def dot_S16x128x128x128_S16x128x128x256_S16x128x128x256_3_2_2_3_01_01 : DotDims S16x128x128x128 S16x128x128x256 S16x128x128x256 where
  lhsContracting := [3]
  rhsContracting := [2]
  lhsNonContracting := [2]
  rhsNonContracting := [3]
  lhsBatch := [0, 1]
  rhsBatch := [0, 1]
  wf := dot_S16x128x128x128_S16x128x128x256_S16x128x128x256_3_2_2_3_01_01_wf

class Facts : Prop extends Facts₀ where

variable [Facts]
-- ==== Proof.Spec.lean ====
/-
  Softmax attention along one image row, as a function on the extended reals.

  A row is 128 pixels of 256 channels, `R w k`. Each pixel is sent through three affine maps,
  `Q w d = ∑ₖ R w k · Wq k d + Bq d` (32 query channels), `K` likewise (32 key channels) and
  `V w c = ∑ₖ R w k · Wv k c + Bv c` (256 value channels). Pixel `w` scores pixel `v` by
  `S w v = ∑_d Q w d · K v d`; the scores of one `w` are turned into weights by the softmax
  `A w v = exp (S w v − maxᵥ S w v) / ∑ᵥ' exp (S w v' − maxᵥ S w v)`, and the result is
  `out w c = ∑ᵥ A w v · V v c`. The whole array function `G` applies this to every row `(b, h)` of
  a [16, 128, 128, 256] array.

  Nothing here needs the inputs to be finite: the two programs this certificate compares compute
  these same sums, products, maximum, exponential and quotient, and differ only in how the arrays
  are laid out and in which order a sum or a maximum is taken, which on the extended reals does not
  matter (`+` and `max` are commutative and associative there).

  The maximum is folded from a starting value `lo`; both programs start from the same float word.
-/
import Idealize.ShloMosaic.PureOps.Ideal
import Idealize.ShloMosaic.Lib.ValueIdx

noncomputable section

namespace Cert.RowAttention

open Idealize.ShloMosaic Idealize.ShloMosaic.ValueIdx

/-- The affine image of pixel `w`'s channel vector under `W`, `B`: `∑ₖ R w k · W k d + B d`. -/
def proj {n : ℕ} (R : Fin 128 → Fin 256 → EReal) (W : Fin 256 → Fin n → EReal) (B : Fin n → EReal)
    (w : Fin 128) (d : Fin n) : EReal :=
  (∑ k : Fin 256, R w k * W k d) + B d

/-- The score of query pixel `w` against key pixel `v`: the inner product of their 32 channels. -/
def score (Q K : Fin 128 → Fin 32 → EReal) (w v : Fin 128) : EReal :=
  ∑ d : Fin 32, Q w d * K v d

/-- The largest score of query pixel `w`, folded from `lo`. -/
def rowMax (lo : EReal) (S : Fin 128 → Fin 128 → EReal) (w : Fin 128) : EReal :=
  (Finset.univ : Finset (Fin 128)).fold max lo (S w)

/-- The exponential of a score less its row's largest. -/
def expo (lo : EReal) (S : Fin 128 → Fin 128 → EReal) (w v : Fin 128) : EReal :=
  Ideal.exp (S w v - rowMax lo S w)

/-- The softmax weight query pixel `w` gives key pixel `v`. -/
def weight (lo : EReal) (S : Fin 128 → Fin 128 → EReal) (w v : Fin 128) : EReal :=
  Ideal.div (expo lo S w v) (∑ v' : Fin 128, expo lo S w v')

/-- Attention along one row: channel `c` of output pixel `w`. -/
def rowAttn (lo : EReal) (R : Fin 128 → Fin 256 → EReal)
    (Wq : Fin 256 → Fin 32 → EReal) (Bq : Fin 32 → EReal)
    (Wk : Fin 256 → Fin 32 → EReal) (Bk : Fin 32 → EReal)
    (Wv : Fin 256 → Fin 256 → EReal) (Bv : Fin 256 → EReal) (w : Fin 128) (c : Fin 256) : EReal :=
  ∑ v : Fin 128, weight lo (score (proj R Wq Bq) (proj R Wk Bk)) w v * proj R Wv Bv v c

/-- The value both programs start their row maximum from: the f32 word of −∞. -/
abbrev lo32 : EReal := Ideal.ofBits .f32 0xFF800000#32

/-- A weight matrix's array as a function of its two coordinates. -/
abbrev mat {n : ℕ} (W : (⟨2, ![256, n]⟩ : Shape).Idx → EReal) : Fin 256 → Fin n → EReal := fun k d => W (ix2 k d)

/-- A bias vector's array as a function of its coordinate. -/
abbrev vec {n : ℕ} (B : (⟨1, ![n]⟩ : Shape).Idx → EReal) : Fin n → EReal := fun d => B (ix1 d)

/-- Row `(b, h)` of the input array. -/
abbrev rowOf (x : (⟨4, ![16, 128, 128, 256]⟩ : Shape).Idx → EReal) (b : Fin 16) (h : Fin 128) : Fin 128 → Fin 256 → EReal :=
  fun w k => x (ix4 b h w k)

/-- THE SPECIFICATION: the attention of every row of `x`, as one function of the seven argument arrays. -/
def G (x : (⟨4, ![16, 128, 128, 256]⟩ : Shape).Idx → EReal)
    (wq : (⟨2, ![256, 32]⟩ : Shape).Idx → EReal) (bq : (⟨1, ![32]⟩ : Shape).Idx → EReal)
    (wk : (⟨2, ![256, 32]⟩ : Shape).Idx → EReal) (bk : (⟨1, ![32]⟩ : Shape).Idx → EReal)
    (wv : (⟨2, ![256, 256]⟩ : Shape).Idx → EReal) (bv : (⟨1, ![256]⟩ : Shape).Idx → EReal) :
    (⟨4, ![16, 128, 128, 256]⟩ : Shape).Idx → EReal :=
  fun i => rowAttn lo32 (rowOf x (i 0) (i 1)) (mat wq) (vec bq) (mat wk) (vec bk) (mat wv) (vec bv) (i 2) (i 3)

/-- `G` at an index given by its coordinates. -/
theorem G_apply (x : (⟨4, ![16, 128, 128, 256]⟩ : Shape).Idx → EReal)
    (wq : (⟨2, ![256, 32]⟩ : Shape).Idx → EReal) (bq : (⟨1, ![32]⟩ : Shape).Idx → EReal)
    (wk : (⟨2, ![256, 32]⟩ : Shape).Idx → EReal) (bk : (⟨1, ![32]⟩ : Shape).Idx → EReal)
    (wv : (⟨2, ![256, 256]⟩ : Shape).Idx → EReal) (bv : (⟨1, ![256]⟩ : Shape).Idx → EReal)
    (b : Fin 16) (h w : Fin 128) (c : Fin 256) :
    G x wq bq wk bk wv bv (ix4 b h w c)
      = rowAttn lo32 (rowOf x b h) (mat wq) (vec bq) (mat wk) (vec bk) (mat wv) (vec bv) w c := rfl

/-! ## Columns of the fused weight and bias

The tiled program multiplies by ONE [256, 512] matrix that holds the query weights in columns
0–31, the key weights in columns 128–159 and the value weights in columns 256–511 (zero
elsewhere), and adds one [1, 512] row laid out the same way. -/

/-- Columns `off … off + n − 1` of a [256, 512] matrix. -/
def colsAt (off n : ℕ) (h : off + n ≤ 512) (W : (⟨2, ![256, 512]⟩ : Shape).Idx → EReal) : Fin 256 → Fin n → EReal :=
  fun k d => W (ix2 k (⟨off + d.val, by have := d.isLt; omega⟩ : Fin 512))

/-- Entries `off … off + n − 1` of a [1, 512] row. -/
def lanesAt (off n : ℕ) (h : off + n ≤ 512) (B : (⟨2, ![1, 512]⟩ : Shape).Idx → EReal) : Fin n → EReal :=
  fun d => B (ix2 (0 : Fin 1) (⟨off + d.val, by have := d.isLt; omega⟩ : Fin 512))

end Cert.RowAttention

end
-- ==== Proof.Stages.lean ====
/-
  The tile body's arithmetic, cut into stages.

  One grid point works on a tile of 32 image rows, 4096 pixels of 256 channels. Its stored value is
  a composition of: ONE product of the tile's [4096, 256] pixels with the fused [256, 512] weight
  plus the fused bias row (`fusedProj`: query, key and value channels of every pixel at once);
  three column ranges of that product re-laid as [32, 128, ·] (`qOf`, `kOf`, `vOf`); per row the
  128 × 128 scores (`scoresOf`); each score row's maximum and the sum of its exponentials, spread
  back along the row (`rowMaxOf`, `rowSumOf`), giving the softmax weights (`weightsOf`); and per
  row the weighted sum of the value channels (`mixOf`).

  Each stage is a definition over VARIABLE vectors, so that what it computes at an index is a small
  lemma of its own; `pay_eq` says the stored value is their composition (the two spell one term).
-/
import proofs.«143943_j71717363909073_2_alg».proof.Proof.Gen.KernelIdeal.Skeleton

noncomputable section

namespace Cert.RowAttention.Tile

open Idealize.ShloMosaic Cert.KernelIdeal Cert.KernelIdeal.Gen

variable {F : FTy → Type} [FloatOps F]

/-- Query, key and value channels of the tile's 4096 pixels in one product: the pixels, flattened to
    [4096, 256], times the fused [256, 512] weight, plus the fused bias row on every pixel. -/
def fusedProj (x0 : Vec F S1x32x128x256 .f32) (x1 : Vec F S256x512 .bf16) (x2 : Vec F S1x512 .f32) : FVec F S4096x512 .f32 :=
  addf
    (matmul dot_S4096x256_S256x512_S4096x512_1_0_0_1_n_n none
      (truncf .bf16 (shapeCast S4096x256 (shapeCast S32x128x256 x0 shapeCasts_S1x32x128x256_S32x128x256) shapeCasts_S32x128x256_S4096x256) bitsLt_bf16_f32)
      (shapeCast S256x512 x1 shapeCasts_S256x512_S256x512)
      (constant S4096x512 .f32 0x00000000#32))
    (broadcastTo S4096x512 (shapeCast S1x512 (shapeCast S512 x2 shapeCasts_S1x512_S512) shapeCasts_S512_S1x512) broadcasts_S1x512_S4096x512)

/-- Columns 0–31 of the product, as [32 rows, 128 pixels, 32 channels]: the queries. -/
def qOf (p : FVec F S4096x512 .f32) : FVec F S32x128x32 .bf16 :=
  shapeCast S32x128x32 (truncf .bf16 (extractStridedSlice S4096x32 ![0, 0] p slices_S4096x512_o0_0_S4096x32) bitsLt_bf16_f32) shapeCasts_S4096x32_S32x128x32

/-- Columns 128–159 of the product, as [32, 128, 32]: the keys. -/
def kOf (p : FVec F S4096x512 .f32) : FVec F S32x128x32 .bf16 :=
  shapeCast S32x128x32 (truncf .bf16 (extractStridedSlice S4096x32 ![0, 128] p slices_S4096x512_o0_128_S4096x32) bitsLt_bf16_f32) shapeCasts_S4096x32_S32x128x32

/-- Columns 256–511 of the product, as [32, 128, 256]: the values. -/
def vOf (p : FVec F S4096x512 .f32) : FVec F S32x128x256 .bf16 :=
  shapeCast S32x128x256 (truncf .bf16 (extractStridedSlice S4096x256 ![0, 256] p slices_S4096x512_o0_256_S4096x256) bitsLt_bf16_f32) shapeCasts_S4096x256_S32x128x256

/-- Per row, every query pixel against every key pixel. -/
def scoresOf (q k : FVec F S32x128x32 .bf16) : FVec F S32x128x128 .f32 :=
  matmul dot_S32x128x32_S32x128x32_S32x128x128_2_2_1_1_0_0 none q k (constant S32x128x128 .f32 0x00000000#32)

/-- Each score row's maximum, spread back along the row. -/
def rowMaxOf (s : FVec F S32x128x128 .f32) : FVec F S32x128x128 .f32 :=
  broadcastTo S32x128x128
    (shapeCast S32x128x1 (multiReduction .maximumf [2] S32x128 s 0xFF800000#32 reduces_S32x128x128_S32x128 (.inl rfl) rfl) shapeCasts_S32x128_S32x128x1)
    broadcasts_S32x128x1_S32x128x128

/-- The exponential of each score less its row's maximum. -/
def exposOf (s : FVec F S32x128x128 .f32) : FVec F S32x128x128 .f32 :=
  exp (subf s (rowMaxOf s))

/-- Each row's sum, spread back along the row. -/
def rowSumOf (e : FVec F S32x128x128 .f32) : FVec F S32x128x128 .f32 :=
  broadcastTo S32x128x128
    (shapeCast S32x128x1 (multiReduction .add [2] S32x128 e 0x00000000#32 reduces_S32x128x128_S32x128 (.inl rfl) rfl) shapeCasts_S32x128_S32x128x1)
    broadcasts_S32x128x1_S32x128x128

/-- The softmax weights of each score row. -/
def weightsOf (s : FVec F S32x128x128 .f32) : FVec F S32x128x128 .bf16 :=
  truncf .bf16 (divf (exposOf s) (rowSumOf (exposOf s))) bitsLt_bf16_f32

/-- Per row, the weighted sums of the value channels, as the tile's [1, 32, 128, 256] block. -/
def mixOf (a : FVec F S32x128x128 .bf16) (v : FVec F S32x128x256 .bf16) : FVec F S1x32x128x256 .f32 :=
  shapeCast S1x32x128x256
    (matmul dot_S32x128x128_S32x128x256_S32x128x256_2_1_1_2_0_0 none a v (constant S32x128x256 .f32 0x00000000#32))
    shapeCasts_S32x128x256_S1x32x128x256

/-- The value the tile body stores is the composition of the stages. -/
theorem pay_eq (x0 : Vec F S1x32x128x256 .f32) (x1 : Vec F S256x512 .bf16) (x2 : Vec F S1x512 .f32) :
    k0_pay1 x0 x1 x2
      = mixOf (weightsOf (scoresOf (qOf (fusedProj x0 x1 x2)) (kOf (fusedProj x0 x1 x2)))) (vOf (fusedProj x0 x1 x2)) := rfl

end Cert.RowAttention.Tile

end
-- ==== Proof.TileProj.lean ====
/-
  The first stage of the tile body, read one entry at a time.

  A tile holds 32 image rows of 128 pixels with 256 channels each. The body lists its 4096 pixels
  one below the other, pixel `(hl, w)` in row `128·hl + w`, and sends all of them through the
  query, key and value maps at once: entry `(128·hl + w, col)` of the product is
  `∑ₖ x0 (0, hl, w, k) · x1 (k, col) + x2 (0, col)`, a sum over the 256 channels. The queries are
  columns 0–31 of that product, the keys columns 128–159 and the values columns 256–511, each put
  back into rows: entry `(hl, w, d)` of a range that starts at column `off` is the product's entry
  `(128·hl + w, off + d)`.

  Re-laying an array keeps every entry and only renames its position: two positions name the same
  entry when they have the same rank in reading order (last coordinate fastest), so each re-laying
  below comes down to one equation between two such ranks, e.g.
  `((0·32 + hl)·128 + w)·256 + k = (128·hl + w)·256 + k`. Rounding to a narrower format is the
  identity on the extended reals, and the product into a zero accumulator is the plain sum.
-/
import proofs.«143943_j71717363909073_2_alg».proof.Proof.Stages
import Idealize.ShloMosaic.Lib.ValueIdx
import Idealize.ShloMosaic.Lib.Pipeline.Value
import Idealize.ShloMosaic.PureOps.Ideal.Laws

noncomputable section

namespace Cert.RowAttention.Tile

open Idealize.ShloMosaic Idealize.ShloMosaic.ValueIdx Cert.KernelIdeal Cert.KernelIdeal.Gen

/-- Pixel `(hl, w)`'s row of the flattened tile. -/
abbrev pix (hl : Fin 32) (w : Fin 128) : Fin 4096 := ⟨128 * hl.val + w.val, by have := hl.isLt; have := w.isLt; omega⟩

/-! ## The tile flattened to one pixel per row -/

/-- Channel `k` of row `128·hl + w` of the flattened tile is channel `k` of pixel `(hl, w)`: dropping the
    leading axis of size one and then merging the two pixel axes both keep the reading-order rank. -/
theorem flatten_apply {α : Type} (x0 : S1x32x128x256.Idx → α) (hl : Fin 32) (w : Fin 128) (k : Fin 256) :
    shapeCast S4096x256 (shapeCast S32x128x256 x0 shapeCasts_S1x32x128x256_S32x128x256) shapeCasts_S32x128x256_S4096x256 (ix2 (pix hl w) k)
      = x0 (ix4 (0 : Fin 1) hl w k) := by
  refine (shapeCast_apply _ _ (ix2 (pix hl w) k) (ix3 hl w k) ?_).trans ?_
  · rw [Shape.rowMajor_val_three, Shape.rowMajor_val_two]
    show (hl.val * 128 + w.val) * 256 + k.val = (128 * hl.val + w.val) * 256 + k.val
    omega
  · refine shapeCast_apply _ _ (ix3 hl w k) (ix4 (0 : Fin 1) hl w k) ?_
    rw [Shape.rowMajor_val_four, Shape.rowMajor_val_three]
    show ((0 * 32 + hl.val) * 128 + w.val) * 256 + k.val = (hl.val * 128 + w.val) * 256 + k.val
    omega

/-! ## The bias row on every pixel -/

/-- The bias row, taken to a plain vector and back (the two re-layings cancel) and then repeated down the 4096
    rows, has in every row `r` the bias's own entry at column `col`. -/
theorem biasRow_apply {α : Type} (x2 : S1x512.Idx → α) (r : Fin 4096) (col : Fin 512) :
    broadcastTo S4096x512 (shapeCast S1x512 (shapeCast S512 x2 shapeCasts_S1x512_S512) shapeCasts_S512_S1x512) broadcasts_S1x512_S4096x512 (ix2 r col)
      = x2 (ix2 (0 : Fin 1) col) := by
  refine (broadcastTo_apply _ _ (ix2 r col) (ix2 (0 : Fin 1) col) (fun a => match a with
    | ⟨0, _⟩ => by show (0 : Nat) = if (1 : Nat) = 1 then 0 else _; rw [if_pos rfl]
    | ⟨1, _⟩ => by show col.val = if (512 : Nat) = 1 then 0 else col.val; rw [if_neg (by decide)])).trans ?_
  refine (shapeCast_apply _ _ (ix2 (0 : Fin 1) col) (ix1 col) ?_).trans ?_
  · rw [Shape.rowMajor_val_one, Shape.rowMajor_val_two]
    show col.val = 0 * 512 + col.val
    omega
  · refine shapeCast_apply _ _ (ix1 col) (ix2 (0 : Fin 1) col) ?_
    rw [Shape.rowMajor_val_one, Shape.rowMajor_val_two]
    show 0 * 512 + col.val = col.val
    omega

/-! ## The product

The product contracts the pixels' channel axis with the weight's row axis. For entry `i = (r, col)` and a
contraction position `q`, the left factor is read at `(r, q)` and the right factor at `(q, col)`; the four
lemmas below are these four coordinates. -/

/-- The left factor's row is the entry's row. -/
private theorem proj_lhs_row (i : S4096x512.Idx) (q : dot_S4096x256_S256x512_S4096x512_1_0_0_1_n_n.contr.Idx) :
    (dot_S4096x256_S256x512_S4096x512_1_0_0_1_n_n.lhsIdx i q 0).val = (i 0).val := by
  unfold DotDims.lhsIdx
  rw [dif_neg (show ¬(0 : Fin S4096x256.rank) ∈ dot_S4096x256_S256x512_S4096x512_1_0_0_1_n_n.lhsBatch by decide), dif_pos (show (0 : Fin S4096x256.rank) ∈ dot_S4096x256_S256x512_S4096x512_1_0_0_1_n_n.lhsNonContracting by decide)]
  rfl
/-- The left factor's channel is the contraction position. -/
private theorem proj_lhs_chan (i : S4096x512.Idx) (q : dot_S4096x256_S256x512_S4096x512_1_0_0_1_n_n.contr.Idx) :
    (dot_S4096x256_S256x512_S4096x512_1_0_0_1_n_n.lhsIdx i q 1).val = (q ⟨0, by decide⟩).val :=
  dot_S4096x256_S256x512_S4096x512_1_0_0_1_n_n.lhsIdx_val_of_single rfl i q
/-- The right factor's row is the contraction position. -/
private theorem proj_rhs_chan (i : S4096x512.Idx) (q : dot_S4096x256_S256x512_S4096x512_1_0_0_1_n_n.contr.Idx) :
    (dot_S4096x256_S256x512_S4096x512_1_0_0_1_n_n.rhsIdx i q 0).val = (q ⟨0, by decide⟩).val :=
  dot_S4096x256_S256x512_S4096x512_1_0_0_1_n_n.rhsIdx_val_of_single rfl i q
/-- The right factor's column is the entry's column. -/
private theorem proj_rhs_col (i : S4096x512.Idx) (q : dot_S4096x256_S256x512_S4096x512_1_0_0_1_n_n.contr.Idx) :
    (dot_S4096x256_S256x512_S4096x512_1_0_0_1_n_n.rhsIdx i q 1).val = (i 1).val := by
  unfold DotDims.rhsIdx
  rw [dif_neg (show ¬(1 : Fin S256x512.rank) ∈ dot_S4096x256_S256x512_S4096x512_1_0_0_1_n_n.rhsBatch by decide), dif_pos (show (1 : Fin S256x512.rank) ∈ dot_S4096x256_S256x512_S4096x512_1_0_0_1_n_n.rhsNonContracting by decide)]
  rfl

/-- Entry `(r, col)` of the product into a zero accumulator is `∑ₖ a (r, k) · b (k, col)` over the 256 channels:
    the sum over contraction positions, re-indexed by the channel each position stands for. -/
theorem projProduct_apply (a : FVec Ideal S4096x256 .bf16) (b : FVec Ideal S256x512 .bf16) (r : Fin 4096) (col : Fin 512) :
    matmul dot_S4096x256_S256x512_S4096x512_1_0_0_1_n_n none a b (constant S4096x512 .f32 0x00000000#32) (ix2 r col)
      = ∑ k : Fin 256, a (ix2 r k) * b (ix2 k col) := by
  refine (Ideal.matmul_constant_zero_apply dot_S4096x256_S256x512_S4096x512_1_0_0_1_n_n none a b (ix2 r col)).trans ?_
  rw [← Equiv.sum_comp (ValueIdx.contrEquiv1 dot_S4096x256_S256x512_S4096x512_1_0_0_1_n_n 256 rfl rfl).symm]
  refine Finset.sum_congr rfl fun k _ => ?_
  have hk := ValueIdx.contrEquiv1_symm_val dot_S4096x256_S256x512_S4096x512_1_0_0_1_n_n 256 rfl rfl k
  have el : dot_S4096x256_S256x512_S4096x512_1_0_0_1_n_n.lhsIdx (ix2 r col) ((ValueIdx.contrEquiv1 dot_S4096x256_S256x512_S4096x512_1_0_0_1_n_n 256 rfl rfl).symm k) = ix2 r k := funext fun c => Fin.ext (by
    match c with
    | ⟨0, _⟩ => exact proj_lhs_row _ _
    | ⟨1, _⟩ => exact (proj_lhs_chan _ _).trans hk)
  have er : dot_S4096x256_S256x512_S4096x512_1_0_0_1_n_n.rhsIdx (ix2 r col) ((ValueIdx.contrEquiv1 dot_S4096x256_S256x512_S4096x512_1_0_0_1_n_n 256 rfl rfl).symm k) = ix2 k col := funext fun c => Fin.ext (by
    match c with
    | ⟨0, _⟩ => exact (proj_rhs_chan _ _).trans hk
    | ⟨1, _⟩ => exact proj_rhs_col _ _)
  rw [el, er]

/-! ## The fused projection -/

/-- Column `col` of pixel `(hl, w)`'s row of the fused projection: the pixel's 256 channels against column `col`
    of the fused weight, plus the fused bias's entry `col`. -/
theorem fusedProj_apply (x0 : Vec Ideal S1x32x128x256 .f32) (x1 : Vec Ideal S256x512 .bf16) (x2 : Vec Ideal S1x512 .f32)
    (hl : Fin 32) (w : Fin 128) (col : Fin 512) :
    fusedProj (F := Ideal) x0 x1 x2 (ix2 (pix hl w) col)
      = (∑ k : Fin 256, x0 (ix4 (0 : Fin 1) hl w k) * x1 (ix2 k col)) + x2 (ix2 (0 : Fin 1) col) := by
  unfold fusedProj
  rw [addf_apply, projProduct_apply, biasRow_apply]
  congr 1
  refine Finset.sum_congr rfl fun k _ => ?_
  rw [truncf_apply, flatten_apply, shapeCast_self]

/-! ## The three column ranges, put back into rows

Each range is cut from the product (row kept, column shifted by the range's first column), rounded (the
identity here) and re-laid so that row `128·hl + w` becomes `(hl, w)`: both positions of channel `d` have
reading-order rank `(128·hl + w)·n + d`, `n` the range's width. -/

/-- Query channel `d` of pixel `(hl, w)` is column `0 + d` of the pixel's row of the product. -/
theorem qOf_apply (p : FVec Ideal S4096x512 .f32) (hl : Fin 32) (w : Fin 128) (d : Fin 32) :
    qOf (F := Ideal) p (ix3 hl w d) = p (ix2 (pix hl w) (⟨0 + d.val, by have := d.isLt; omega⟩ : Fin 512)) := by
  unfold qOf
  refine (shapeCast_apply _ _ (ix3 hl w d) (ix2 (pix hl w) d) ?_).trans ?_
  · rw [Shape.rowMajor_val_three, Shape.rowMajor_val_two]
    show (128 * hl.val + w.val) * 32 + d.val = (hl.val * 128 + w.val) * 32 + d.val
    omega
  · rw [truncf_apply]
    exact extractStridedSlice_apply _ p _ (ix2 (pix hl w) d) _ (fun a => match a with
      | ⟨0, _⟩ => by show 128 * hl.val + w.val = 0 + (128 * hl.val + w.val); omega
      | ⟨1, _⟩ => rfl)

/-- Key channel `d` of pixel `(hl, w)` is column `128 + d` of the pixel's row of the product. -/
theorem kOf_apply (p : FVec Ideal S4096x512 .f32) (hl : Fin 32) (w : Fin 128) (d : Fin 32) :
    kOf (F := Ideal) p (ix3 hl w d) = p (ix2 (pix hl w) (⟨128 + d.val, by have := d.isLt; omega⟩ : Fin 512)) := by
  unfold kOf
  refine (shapeCast_apply _ _ (ix3 hl w d) (ix2 (pix hl w) d) ?_).trans ?_
  · rw [Shape.rowMajor_val_three, Shape.rowMajor_val_two]
    show (128 * hl.val + w.val) * 32 + d.val = (hl.val * 128 + w.val) * 32 + d.val
    omega
  · rw [truncf_apply]
    exact extractStridedSlice_apply _ p _ (ix2 (pix hl w) d) _ (fun a => match a with
      | ⟨0, _⟩ => by show 128 * hl.val + w.val = 0 + (128 * hl.val + w.val); omega
      | ⟨1, _⟩ => rfl)

/-- Value channel `c` of pixel `(hl, w)` is column `256 + c` of the pixel's row of the product. -/
theorem vOf_apply (p : FVec Ideal S4096x512 .f32) (hl : Fin 32) (w : Fin 128) (c : Fin 256) :
    vOf (F := Ideal) p (ix3 hl w c) = p (ix2 (pix hl w) (⟨256 + c.val, by have := c.isLt; omega⟩ : Fin 512)) := by
  unfold vOf
  refine (shapeCast_apply _ _ (ix3 hl w c) (ix2 (pix hl w) c) ?_).trans ?_
  · rw [Shape.rowMajor_val_three, Shape.rowMajor_val_two]
    show (128 * hl.val + w.val) * 256 + c.val = (hl.val * 128 + w.val) * 256 + c.val
    omega
  · rw [truncf_apply]
    exact extractStridedSlice_apply _ p _ (ix2 (pix hl w) c) _ (fun a => match a with
      | ⟨0, _⟩ => by show 128 * hl.val + w.val = 0 + (128 * hl.val + w.val); omega
      | ⟨1, _⟩ => rfl)

end Cert.RowAttention.Tile

end
-- ==== Proof.TileSoftmax.lean ====
/-
  The tile body's later stages read at an index (at the extended reals).

  For row `hl` of the tile: the score of query pixel `w` against key pixel `v` is the sum over the
  32 channels of the products (`scoresOf_apply`: a batched matrix product into a zero accumulator
  is that sum); a score row's maximum and the sum of a row, spread back along the row, read at any
  `(hl, w, v)` are the fold of `max` and the sum over the row's 128 entries (`rowMaxOf_apply`,
  `rowSumOf_apply`: a reduction over the last axis, a trailing unit axis added, a broadcast along
  it); so the softmax weights are `RowAttention.weight` of the score rows (`weightsOf_apply`); and
  the stored block at `(0, hl, w, c)` is the sum over the 128 key pixels of weight times value
  channel (`mixOf_apply`).
-/
import proofs.«143943_j71717363909073_2_alg».proof.Proof.Stages
import proofs.«143943_j71717363909073_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.RowAttention.Tile

open Idealize.ShloMosaic Idealize.ShloMosaic.ValueIdx Cert.KernelIdeal Cert.KernelIdeal.Gen Cert.RowAttention

/-! ## Two layout readings: a trailing unit axis, and a broadcast along it -/

/-- An `[a, b]` array given a trailing unit axis reads, at `(i, j, 0)`, the operand at `(i, j)`. -/
theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast along its unit axis to `[a, b, n]` reads, at `(i, j, k)`, the operand at `(i, j, 0)`. -/
theorem broadcastTo_ab1_abn_apply {α : Type} {a b n : ℕ} (v : (⟨3, ![a, b, 1]⟩ : Shape).Idx → α)
    (h : (⟨3, ![a, b, 1]⟩ : Shape).Broadcasts ⟨3, ![a, b, n]⟩) (i : Fin a) (j : Fin b) (k : Fin n) :
    broadcastTo ⟨3, ![a, b, n]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-! ## The scores -/

theorem scores_lhs0 (i : S32x128x128.Idx) (q : dot_S32x128x32_S32x128x32_S32x128x128_2_2_1_1_0_0.contr.Idx) : (dot_S32x128x32_S32x128x32_S32x128x128_2_2_1_1_0_0.lhsIdx i q 0).val = (i 0).val := by
  unfold DotDims.lhsIdx
  rw [dif_pos (show (0 : Fin S32x128x32.rank) ∈ dot_S32x128x32_S32x128x32_S32x128x128_2_2_1_1_0_0.lhsBatch by decide)]
  rfl
theorem scores_lhs1 (i : S32x128x128.Idx) (q : dot_S32x128x32_S32x128x32_S32x128x128_2_2_1_1_0_0.contr.Idx) : (dot_S32x128x32_S32x128x32_S32x128x128_2_2_1_1_0_0.lhsIdx i q 1).val = (i 1).val := by
  unfold DotDims.lhsIdx
  rw [dif_neg (show ¬(1 : Fin S32x128x32.rank) ∈ dot_S32x128x32_S32x128x32_S32x128x128_2_2_1_1_0_0.lhsBatch by decide), dif_pos (show (1 : Fin S32x128x32.rank) ∈ dot_S32x128x32_S32x128x32_S32x128x128_2_2_1_1_0_0.lhsNonContracting by decide)]
  rfl
theorem scores_lhs2 (i : S32x128x128.Idx) (q : dot_S32x128x32_S32x128x32_S32x128x128_2_2_1_1_0_0.contr.Idx) : (dot_S32x128x32_S32x128x32_S32x128x128_2_2_1_1_0_0.lhsIdx i q 2).val = (q ⟨0, by decide⟩).val :=
  dot_S32x128x32_S32x128x32_S32x128x128_2_2_1_1_0_0.lhsIdx_val_of_single rfl i q
theorem scores_rhs0 (i : S32x128x128.Idx) (q : dot_S32x128x32_S32x128x32_S32x128x128_2_2_1_1_0_0.contr.Idx) : (dot_S32x128x32_S32x128x32_S32x128x128_2_2_1_1_0_0.rhsIdx i q 0).val = (i 0).val := by
  unfold DotDims.rhsIdx
  rw [dif_pos (show (0 : Fin S32x128x32.rank) ∈ dot_S32x128x32_S32x128x32_S32x128x128_2_2_1_1_0_0.rhsBatch by decide)]
  rfl
theorem scores_rhs1 (i : S32x128x128.Idx) (q : dot_S32x128x32_S32x128x32_S32x128x128_2_2_1_1_0_0.contr.Idx) : (dot_S32x128x32_S32x128x32_S32x128x128_2_2_1_1_0_0.rhsIdx i q 1).val = (i 2).val := by
  unfold DotDims.rhsIdx
  rw [dif_neg (show ¬(1 : Fin S32x128x32.rank) ∈ dot_S32x128x32_S32x128x32_S32x128x128_2_2_1_1_0_0.rhsBatch by decide), dif_pos (show (1 : Fin S32x128x32.rank) ∈ dot_S32x128x32_S32x128x32_S32x128x128_2_2_1_1_0_0.rhsNonContracting by decide)]
  rfl
theorem scores_rhs2 (i : S32x128x128.Idx) (q : dot_S32x128x32_S32x128x32_S32x128x128_2_2_1_1_0_0.contr.Idx) : (dot_S32x128x32_S32x128x32_S32x128x128_2_2_1_1_0_0.rhsIdx i q 2).val = (q ⟨0, by decide⟩).val :=
  dot_S32x128x32_S32x128x32_S32x128x128_2_2_1_1_0_0.rhsIdx_val_of_single rfl i q

/-- Row `hl`'s score of query pixel `w` against key pixel `v`: the sum over the 32 channels. -/
theorem scoresOf_apply (q k : FVec Ideal S32x128x32 .bf16) (hl : Fin 32) (w v : Fin 128) :
    scoresOf (F := Ideal) q k (ix3 hl w v) = ∑ d : Fin 32, q (ix3 hl w d) * k (ix3 hl v d) := by
  unfold scoresOf
  simp only [matmul]
  rw [Ideal.matmul_constant_zero_apply, ← Equiv.sum_comp (contrEquiv1 dot_S32x128x32_S32x128x32_S32x128x128_2_2_1_1_0_0 32 rfl rfl).symm]
  refine Finset.sum_congr rfl fun d _ => ?_
  have hd := contrEquiv1_symm_val dot_S32x128x32_S32x128x32_S32x128x128_2_2_1_1_0_0 32 rfl rfl d
  have el : dot_S32x128x32_S32x128x32_S32x128x128_2_2_1_1_0_0.lhsIdx (ix3 hl w v) ((contrEquiv1 dot_S32x128x32_S32x128x32_S32x128x128_2_2_1_1_0_0 32 rfl rfl).symm d) = ix3 hl w d := funext fun a => Fin.ext (by
    match a with
    | ⟨0, _⟩ => exact scores_lhs0 _ _
    | ⟨1, _⟩ => exact scores_lhs1 _ _
    | ⟨2, _⟩ => exact (scores_lhs2 _ _).trans hd)
  have er : dot_S32x128x32_S32x128x32_S32x128x128_2_2_1_1_0_0.rhsIdx (ix3 hl w v) ((contrEquiv1 dot_S32x128x32_S32x128x32_S32x128x128_2_2_1_1_0_0 32 rfl rfl).symm d) = ix3 hl v d := funext fun a => Fin.ext (by
    match a with
    | ⟨0, _⟩ => exact scores_rhs0 _ _
    | ⟨1, _⟩ => exact scores_rhs1 _ _
    | ⟨2, _⟩ => exact (scores_rhs2 _ _).trans hd)
  rw [el, er]

/-! ## A row's maximum and a row's sum, spread along the row -/

/-- The row maximum spread along the row, read anywhere on row `(hl, w)`: the fold of `max` over the row. -/
theorem rowMaxOf_apply (s : FVec Ideal S32x128x128 .f32) (hl : Fin 32) (w v : Fin 128) :
    rowMaxOf (F := Ideal) s (ix3 hl w v) = (Finset.univ : Finset (Fin 128)).fold max lo32 (fun v' => s (ix3 hl w v')) := by
  unfold rowMaxOf
  rw [broadcastTo_ab1_abn_apply, shapeCast_ab_ab1_apply]
  refine (Ideal.multiReduction_maximumf_single s 0xFF800000#32 reduces_S32x128x128_S32x128 (.inl rfl) rfl (ix2 hl w)).trans ?_
  refine congrArg (fun f => (Finset.univ : Finset (Fin 128)).fold max lo32 f) ?_
  exact funext fun v' => congrArg s (funext fun a => Fin.ext (by
    match a with
    | ⟨0, _⟩ => rfl
    | ⟨1, _⟩ => rfl
    | ⟨2, _⟩ => rfl))

/-- The row sum spread along the row, read anywhere on row `(hl, w)`: the sum over the row. -/
theorem rowSumOf_apply (e : FVec Ideal S32x128x128 .f32) (hl : Fin 32) (w v : Fin 128) :
    rowSumOf (F := Ideal) e (ix3 hl w v) = ∑ v' : Fin 128, e (ix3 hl w v') := by
  unfold rowSumOf
  rw [broadcastTo_ab1_abn_apply, shapeCast_ab_ab1_apply]
  refine (Ideal.multiReduction_add_single e 0x00000000#32 reduces_S32x128x128_S32x128 (.inl rfl) rfl (ix2 hl w)).trans ?_
  refine Finset.sum_congr rfl fun v' _ => ?_
  exact congrArg e (funext fun a => Fin.ext (by
    match a with
    | ⟨0, _⟩ => rfl
    | ⟨1, _⟩ => rfl
    | ⟨2, _⟩ => rfl))

/-! ## The softmax weights -/

/-- The score rows of row `hl` as a function of the two pixels. -/
abbrev rowScores (s : FVec Ideal S32x128x128 .f32) (hl : Fin 32) : Fin 128 → Fin 128 → EReal := fun w v => s (ix3 hl w v)

theorem exposOf_apply (s : FVec Ideal S32x128x128 .f32) (hl : Fin 32) (w v : Fin 128) :
    exposOf (F := Ideal) s (ix3 hl w v) = expo lo32 (rowScores s hl) w v := by
  unfold exposOf expo rowMax
  show Ideal.exp (s (ix3 hl w v) - rowMaxOf (F := Ideal) s (ix3 hl w v)) = _
  rw [rowMaxOf_apply]

/-- The softmax weights of row `hl` are `RowAttention.weight` of its score rows. -/
theorem weightsOf_apply (s : FVec Ideal S32x128x128 .f32) (hl : Fin 32) (w v : Fin 128) :
    weightsOf (F := Ideal) s (ix3 hl w v) = weight lo32 (rowScores s hl) w v := by
  unfold weightsOf weight
  show Ideal.div (exposOf (F := Ideal) s (ix3 hl w v)) (rowSumOf (F := Ideal) (exposOf (F := Ideal) s) (ix3 hl w v)) = _
  rw [rowSumOf_apply, exposOf_apply]
  exact congrArg (Ideal.div _) (Finset.sum_congr rfl fun v' _ => exposOf_apply s hl w v')

/-! ## The weighted sum of the value channels -/

theorem mix_lhs0 (i : S32x128x256.Idx) (q : dot_S32x128x128_S32x128x256_S32x128x256_2_1_1_2_0_0.contr.Idx) : (dot_S32x128x128_S32x128x256_S32x128x256_2_1_1_2_0_0.lhsIdx i q 0).val = (i 0).val := by
  unfold DotDims.lhsIdx
  rw [dif_pos (show (0 : Fin S32x128x128.rank) ∈ dot_S32x128x128_S32x128x256_S32x128x256_2_1_1_2_0_0.lhsBatch by decide)]
  rfl
theorem mix_lhs1 (i : S32x128x256.Idx) (q : dot_S32x128x128_S32x128x256_S32x128x256_2_1_1_2_0_0.contr.Idx) : (dot_S32x128x128_S32x128x256_S32x128x256_2_1_1_2_0_0.lhsIdx i q 1).val = (i 1).val := by
  unfold DotDims.lhsIdx
  rw [dif_neg (show ¬(1 : Fin S32x128x128.rank) ∈ dot_S32x128x128_S32x128x256_S32x128x256_2_1_1_2_0_0.lhsBatch by decide), dif_pos (show (1 : Fin S32x128x128.rank) ∈ dot_S32x128x128_S32x128x256_S32x128x256_2_1_1_2_0_0.lhsNonContracting by decide)]
  rfl
theorem mix_lhs2 (i : S32x128x256.Idx) (q : dot_S32x128x128_S32x128x256_S32x128x256_2_1_1_2_0_0.contr.Idx) : (dot_S32x128x128_S32x128x256_S32x128x256_2_1_1_2_0_0.lhsIdx i q 2).val = (q ⟨0, by decide⟩).val :=
  dot_S32x128x128_S32x128x256_S32x128x256_2_1_1_2_0_0.lhsIdx_val_of_single rfl i q
theorem mix_rhs0 (i : S32x128x256.Idx) (q : dot_S32x128x128_S32x128x256_S32x128x256_2_1_1_2_0_0.contr.Idx) : (dot_S32x128x128_S32x128x256_S32x128x256_2_1_1_2_0_0.rhsIdx i q 0).val = (i 0).val := by
  unfold DotDims.rhsIdx
  rw [dif_pos (show (0 : Fin S32x128x256.rank) ∈ dot_S32x128x128_S32x128x256_S32x128x256_2_1_1_2_0_0.rhsBatch by decide)]
  rfl
theorem mix_rhs1 (i : S32x128x256.Idx) (q : dot_S32x128x128_S32x128x256_S32x128x256_2_1_1_2_0_0.contr.Idx) : (dot_S32x128x128_S32x128x256_S32x128x256_2_1_1_2_0_0.rhsIdx i q 1).val = (q ⟨0, by decide⟩).val :=
  dot_S32x128x128_S32x128x256_S32x128x256_2_1_1_2_0_0.rhsIdx_val_of_single rfl i q
theorem mix_rhs2 (i : S32x128x256.Idx) (q : dot_S32x128x128_S32x128x256_S32x128x256_2_1_1_2_0_0.contr.Idx) : (dot_S32x128x128_S32x128x256_S32x128x256_2_1_1_2_0_0.rhsIdx i q 2).val = (i 2).val := by
  unfold DotDims.rhsIdx
  rw [dif_neg (show ¬(2 : Fin S32x128x256.rank) ∈ dot_S32x128x128_S32x128x256_S32x128x256_2_1_1_2_0_0.rhsBatch by decide), dif_pos (show (2 : Fin S32x128x256.rank) ∈ dot_S32x128x128_S32x128x256_S32x128x256_2_1_1_2_0_0.rhsNonContracting by decide)]
  rfl

/-- The stored block at `(0, hl, w, c)`: the sum over the 128 key pixels of weight times value channel. -/
theorem mixOf_apply (a : FVec Ideal S32x128x128 .bf16) (v : FVec Ideal S32x128x256 .bf16) (hl : Fin 32) (w : Fin 128) (c : Fin 256) :
    mixOf (F := Ideal) a v (ix4 (0 : Fin 1) hl w c) = ∑ v' : Fin 128, a (ix3 hl w v') * v (ix3 hl v' c) := by
  unfold mixOf
  rw [shapeCast_abc_1abc_apply]
  simp only [matmul]
  rw [Ideal.matmul_constant_zero_apply, ← Equiv.sum_comp (contrEquiv1 dot_S32x128x128_S32x128x256_S32x128x256_2_1_1_2_0_0 128 rfl rfl).symm]
  refine Finset.sum_congr rfl fun d _ => ?_
  have hd := contrEquiv1_symm_val dot_S32x128x128_S32x128x256_S32x128x256_2_1_1_2_0_0 128 rfl rfl d
  have el : dot_S32x128x128_S32x128x256_S32x128x256_2_1_1_2_0_0.lhsIdx (ix3 hl w c) ((contrEquiv1 dot_S32x128x128_S32x128x256_S32x128x256_2_1_1_2_0_0 128 rfl rfl).symm d) = ix3 hl w d := funext fun a => Fin.ext (by
    match a with
    | ⟨0, _⟩ => exact mix_lhs0 _ _
    | ⟨1, _⟩ => exact mix_lhs1 _ _
    | ⟨2, _⟩ => exact (mix_lhs2 _ _).trans hd)
  have er : dot_S32x128x128_S32x128x256_S32x128x256_2_1_1_2_0_0.rhsIdx (ix3 hl w c) ((contrEquiv1 dot_S32x128x128_S32x128x256_S32x128x256_2_1_1_2_0_0 128 rfl rfl).symm d) = ix3 hl d c := funext fun a => Fin.ext (by
    match a with
    | ⟨0, _⟩ => exact mix_rhs0 _ _
    | ⟨1, _⟩ => exact (mix_rhs1 _ _).trans hd
    | ⟨2, _⟩ => exact mix_rhs2 _ _)
  rw [el, er]

end Cert.RowAttention.Tile

end
-- ==== Proof.Body.lean ====
/-
  The tile body computes row attention.

  Putting the stages together: at a point holding the tile `x0` (32 rows of 128 pixels of 256
  channels), the fused weight `x1` and the fused bias row `x2`, the stored value at `(0, hl, w, c)` is
  `RowAttention.rowAttn` of the tile's row `hl`, with the query, key and value maps read off the
  column ranges 0–31, 128–159 and 256–511 of `x1` and `x2`: the fused product's column `off + d` at
  pixel `(hl, w)` is the affine image `proj` under columns `off …`, the scores, the softmax weights
  and the final weighted sum are the stages' readings.
-/
import proofs.«143943_j71717363909073_2_alg».proof.Proof.TileProj
import proofs.«143943_j71717363909073_2_alg».proof.Proof.TileSoftmax

noncomputable section

namespace Cert.RowAttention.Tile

open Idealize.ShloMosaic Idealize.ShloMosaic.ValueIdx Cert.KernelIdeal Cert.KernelIdeal.Gen Cert.RowAttention

/-- Row `hl` of a tile as a function of pixel and channel. -/
abbrev tileRow (x0 : Vec Ideal S1x32x128x256 .f32) (hl : Fin 32) : Fin 128 → Fin 256 → EReal :=
  fun w k => x0 (ix4 (0 : Fin 1) hl w k)

/-- The queries of row `hl`: the affine image under columns 0–31. -/
theorem q_at (x0 : Vec Ideal S1x32x128x256 .f32) (x1 : Vec Ideal S256x512 .bf16) (x2 : Vec Ideal S1x512 .f32)
    (hl : Fin 32) (w : Fin 128) (d : Fin 32) :
    qOf (F := Ideal) (fusedProj (F := Ideal) x0 x1 x2) (ix3 hl w d)
      = proj (tileRow x0 hl) (colsAt 0 32 (by norm_num) x1) (lanesAt 0 32 (by norm_num) x2) w d := by
  rw [qOf_apply, fusedProj_apply]; rfl

/-- The keys of row `hl`: the affine image under columns 128–159. -/
theorem k_at (x0 : Vec Ideal S1x32x128x256 .f32) (x1 : Vec Ideal S256x512 .bf16) (x2 : Vec Ideal S1x512 .f32)
    (hl : Fin 32) (w : Fin 128) (d : Fin 32) :
    kOf (F := Ideal) (fusedProj (F := Ideal) x0 x1 x2) (ix3 hl w d)
      = proj (tileRow x0 hl) (colsAt 128 32 (by norm_num) x1) (lanesAt 128 32 (by norm_num) x2) w d := by
  rw [kOf_apply, fusedProj_apply]; rfl

/-- The values of row `hl`: the affine image under columns 256–511. -/
theorem v_at (x0 : Vec Ideal S1x32x128x256 .f32) (x1 : Vec Ideal S256x512 .bf16) (x2 : Vec Ideal S1x512 .f32)
    (hl : Fin 32) (w : Fin 128) (c : Fin 256) :
    vOf (F := Ideal) (fusedProj (F := Ideal) x0 x1 x2) (ix3 hl w c)
      = proj (tileRow x0 hl) (colsAt 256 256 (by norm_num) x1) (lanesAt 256 256 (by norm_num) x2) w c := by
  rw [vOf_apply, fusedProj_apply]; rfl

/-- The score rows of row `hl` are the scores of its queries against its keys. -/
theorem scores_at (x0 : Vec Ideal S1x32x128x256 .f32) (x1 : Vec Ideal S256x512 .bf16) (x2 : Vec Ideal S1x512 .f32) (hl : Fin 32) :
    rowScores (scoresOf (F := Ideal) (qOf (F := Ideal) (fusedProj (F := Ideal) x0 x1 x2)) (kOf (F := Ideal) (fusedProj (F := Ideal) x0 x1 x2))) hl
      = score (proj (tileRow x0 hl) (colsAt 0 32 (by norm_num) x1) (lanesAt 0 32 (by norm_num) x2))
          (proj (tileRow x0 hl) (colsAt 128 32 (by norm_num) x1) (lanesAt 128 32 (by norm_num) x2)) := by
  refine funext fun w => funext fun v => ?_
  show scoresOf (F := Ideal) _ _ (ix3 hl w v) = _
  rw [scoresOf_apply]
  unfold score
  exact Finset.sum_congr rfl fun d _ => by rw [q_at, k_at]

/-- THE BODY: the value stored at `(0, hl, w, c)` is the attention of the tile's row `hl`. -/
theorem body_at (x0 : Vec Ideal S1x32x128x256 .f32) (x1 : Vec Ideal S256x512 .bf16) (x2 : Vec Ideal S1x512 .f32)
    (hl : Fin 32) (w : Fin 128) (c : Fin 256) :
    k0_pay1 (F := Ideal) x0 x1 x2 (ix4 (0 : Fin 1) hl w c)
      = rowAttn lo32 (fun w' k => x0 (ix4 (0 : Fin 1) hl w' k)) (colsAt 0 32 (by norm_num) x1) (lanesAt 0 32 (by norm_num) x2)
          (colsAt 128 32 (by norm_num) x1) (lanesAt 128 32 (by norm_num) x2) (colsAt 256 256 (by norm_num) x1) (lanesAt 256 256 (by norm_num) x2) w c := by
  rw [pay_eq, mixOf_apply]
  unfold rowAttn
  refine Finset.sum_congr rfl fun v _ => ?_
  rw [weightsOf_apply, v_at, scores_at]

end Cert.RowAttention.Tile

end
-- ==== Proof.LibScatterSet.lean ====
/-
  Reading a "set" scatter at one element.

  `Host.scatter d (fun _ b => b) x idx upd` walks through the update positions in row-major order;
  each position whose target lies inside the operand overwrites that target with the update's
  element. This module says what is found at an element `i` afterwards:

  * if no update position targets `i`, the operand's element `x i` is still there;
  * if exactly one update position `j` targets `i`, the update's element `upd j` is there.

  Both are instances of the same statement about the left fold over ANY list of positions, proved
  by induction on the list: a position that does not target `i` leaves element `i` alone, and
  after the one position that does target `i` nothing touches it again.

  The last part specialises this to writing an [R, n] block into columns `off … off + n − 1` of an
  [R, C] matrix (one start index, both update axes window axes, the start index naming the
  column axis): inside the column range the block is read, outside it the operand.
-/
import Idealize.ShloMosaic.PureOps.ShapeOps
import Idealize.ShloMosaic.Lib.ValueIdx

namespace Idealize.ShloMosaic.ScatterSet

open Idealize.ShloMosaic Idealize.ShloMosaic.ValueIdx

section Fold
variable {s si u : Shape} {w : ℕ} {α : Type}

/-- One step of the scatter's fold with the overwriting body: position `n` of the update, when its
    target is inside the operand, replaces the element there. -/
def step (d : ScatterDims s si u) (idx : IVec si w) (upd : u.Idx → α) (r : s.Idx → α) (n : Fin u.numel) :
    s.Idx → α :=
  match d.resultIdx? (u.rowMajor.symm n) idx with
  | some i => fun i' => if i' = i then upd (u.rowMajor.symm n) else r i'
  | none => r

theorem scatter_eq_foldl (d : ScatterDims s si u) (x : s.Idx → α) (idx : IVec si w) (upd : u.Idx → α) :
    Host.scatter d (fun _ b => b) x idx upd = (List.finRange u.numel).foldl (step d idx upd) x := rfl

/-- A step whose position does not target `i` leaves element `i` as it was. -/
theorem step_of_ne (d : ScatterDims s si u) (idx : IVec si w) (upd : u.Idx → α) (r : s.Idx → α)
    (n : Fin u.numel) (i : s.Idx) (h : d.resultIdx? (u.rowMajor.symm n) idx ≠ some i) :
    step d idx upd r n i = r i := by
  unfold step
  generalize d.resultIdx? (u.rowMajor.symm n) idx = o at h
  cases o with
  | none => rfl
  | some i0 =>
    show (if i = i0 then _ else _) = _
    rw [if_neg]
    rintro rfl
    exact h rfl

/-- A step whose position targets `i` puts the update's element there. -/
theorem step_of_eq (d : ScatterDims s si u) (idx : IVec si w) (upd : u.Idx → α) (r : s.Idx → α)
    (n : Fin u.numel) (i : s.Idx) (h : d.resultIdx? (u.rowMajor.symm n) idx = some i) :
    step d idx upd r n i = upd (u.rowMajor.symm n) := by
  unfold step
  rw [h]
  exact if_pos rfl

/-- Folding over positions none of which targets `i` leaves element `i` as it was. -/
theorem foldl_of_miss (d : ScatterDims s si u) (idx : IVec si w) (upd : u.Idx → α) (i : s.Idx)
    (l : List (Fin u.numel)) (r : s.Idx → α)
    (h : ∀ n ∈ l, d.resultIdx? (u.rowMajor.symm n) idx ≠ some i) :
    l.foldl (step d idx upd) r i = r i := by
  induction l generalizing r with
  | nil => rfl
  | cons n l ih =>
    rw [List.foldl_cons, ih _ (fun n' hn' => h n' (List.mem_cons_of_mem _ hn'))]
    exact step_of_ne d idx upd r n i (h n (List.mem_cons_self ..))

/-- Folding over distinct positions exactly one of which, `n₀`, targets `i` leaves the update's
    element at `n₀` there. -/
theorem foldl_of_hit (d : ScatterDims s si u) (idx : IVec si w) (upd : u.Idx → α) (i : s.Idx)
    (l : List (Fin u.numel)) (r : s.Idx → α) (n₀ : Fin u.numel) (hmem : n₀ ∈ l) (hnd : l.Nodup)
    (hhit : d.resultIdx? (u.rowMajor.symm n₀) idx = some i)
    (huniq : ∀ n ∈ l, d.resultIdx? (u.rowMajor.symm n) idx = some i → n = n₀) :
    l.foldl (step d idx upd) r i = upd (u.rowMajor.symm n₀) := by
  induction l generalizing r with
  | nil => exact absurd hmem (List.not_mem_nil)
  | cons n l ih =>
    rw [List.foldl_cons]
    have hnd' := List.nodup_cons.1 hnd
    by_cases hn : n = n₀
    · subst hn
      rw [foldl_of_miss d idx upd i l _ (fun n' hn' h' => hnd'.1 (huniq n' (List.mem_cons_of_mem _ hn') h' ▸ hn'))]
      exact step_of_eq d idx upd r n i hhit
    · have hmem' : n₀ ∈ l := by
        rcases List.mem_cons.1 hmem with h | h
        · exact absurd h.symm hn
        · exact h
      exact ih _ hmem' hnd'.2 (fun n' hn' => huniq n' (List.mem_cons_of_mem _ hn'))

/-- An element no update position targets keeps the operand's value. -/
theorem scatter_set_of_miss (d : ScatterDims s si u) (x : s.Idx → α) (idx : IVec si w) (upd : u.Idx → α)
    (i : s.Idx) (h : ∀ j : u.Idx, d.resultIdx? j idx ≠ some i) :
    Host.scatter d (fun _ b => b) x idx upd i = x i := by
  rw [scatter_eq_foldl]
  exact foldl_of_miss d idx upd i _ x (fun n _ => h _)

/-- An element exactly one update position `j` targets holds the update's element at `j`. -/
theorem scatter_set_of_hit (d : ScatterDims s si u) (x : s.Idx → α) (idx : IVec si w) (upd : u.Idx → α)
    (i : s.Idx) (j : u.Idx) (hj : d.resultIdx? j idx = some i)
    (huniq : ∀ j' : u.Idx, d.resultIdx? j' idx = some i → j' = j) :
    Host.scatter d (fun _ b => b) x idx upd i = upd j := by
  rw [scatter_eq_foldl]
  have e : u.rowMajor.symm (u.rowMajor j) = j := u.rowMajor.symm_apply_apply j
  rw [foldl_of_hit d idx upd i _ x (u.rowMajor j) (List.mem_finRange _) (List.nodup_finRange _)
    (by rw [e]; exact hj)
    (fun n _ hn => by
      have := huniq _ hn
      rw [← this]; exact (u.rowMajor.apply_symm_apply n).symm), e]

end Fold

section Columns
variable {w : ℕ} {α : Type} {R C n : ℕ}

/-- The dimension numbers of writing an [R, n] block into a column range of an [R, C] matrix at ONE
    start index: both update axes are window axes, no operand axis is inserted, and the start index's
    one component is a position on the column axis. -/
def IsColumnWrite (d : ScatterDims ⟨2, ![R, C]⟩ ⟨1, ![1]⟩ ⟨2, ![R, n]⟩) : Prop :=
  d.updateWindowDims = [0, 1] ∧ d.insertedWindowDims = [] ∧ d.scatterDimsToOperandDims = [1] ∧ d.indexVectorDim = 0

/-- With no axis removed every axis is kept. -/
theorem mem_kept_nil {s : Shape} (a : Fin s.rank) : a ∈ s.kept [] := by
  simp [Shape.kept]

theorem start_row (d : ScatterDims ⟨2, ![R, C]⟩ ⟨1, ![1]⟩ ⟨2, ![R, n]⟩) (hd : IsColumnWrite d)
    (j : (⟨2, ![R, n]⟩ : Shape).Idx) (idx : IVec ⟨1, ![1]⟩ w) : d.start j idx (0 : Fin 2) = 0 := by
  obtain ⟨uw, iw, sd, iv, wf⟩ := d
  obtain ⟨h1, h2, h3, h4⟩ := hd
  simp only at h1 h2 h3 h4
  subst h1 h2 h3 h4
  unfold ScatterDims.start
  exact dif_neg (show ¬ ((0 : Fin 2) ∈ ([1] : List (Fin 2))) by decide)

theorem start_col (d : ScatterDims ⟨2, ![R, C]⟩ ⟨1, ![1]⟩ ⟨2, ![R, n]⟩) (hd : IsColumnWrite d)
    (j : (⟨2, ![R, n]⟩ : Shape).Idx) (idx : IVec ⟨1, ![1]⟩ w) (off : ℤ) (hidx : ∀ k, (idx k).toInt = off) :
    d.start j idx (1 : Fin 2) = off := by
  obtain ⟨uw, iw, sd, iv, wf⟩ := d
  obtain ⟨h1, h2, h3, h4⟩ := hd
  simp only at h1 h2 h3 h4
  subst h1 h2 h3 h4
  unfold ScatterDims.start
  exact (dif_pos (show (1 : Fin 2) ∈ ([1] : List (Fin 2)) by decide)).trans (hidx _)

theorem window_row (d : ScatterDims ⟨2, ![R, C]⟩ ⟨1, ![1]⟩ ⟨2, ![R, n]⟩) (hd : IsColumnWrite d)
    (j : (⟨2, ![R, n]⟩ : Shape).Idx) : d.window j (0 : Fin 2) = (j 0).val := by
  obtain ⟨uw, iw, sd, iv, wf⟩ := d
  obtain ⟨h1, h2, h3, h4⟩ := hd
  simp only at h1 h2 h3 h4
  subst h1 h2 h3 h4
  unfold ScatterDims.window
  exact (dif_pos (mem_kept_nil _)).trans rfl

theorem window_col (d : ScatterDims ⟨2, ![R, C]⟩ ⟨1, ![1]⟩ ⟨2, ![R, n]⟩) (hd : IsColumnWrite d)
    (j : (⟨2, ![R, n]⟩ : Shape).Idx) : d.window j (1 : Fin 2) = (j 1).val := by
  obtain ⟨uw, iw, sd, iv, wf⟩ := d
  obtain ⟨h1, h2, h3, h4⟩ := hd
  simp only at h1 h2 h3 h4
  subst h1 h2 h3 h4
  unfold ScatterDims.window
  exact (dif_pos (mem_kept_nil _)).trans rfl

/-- Where update position `j` lands: same row, column `off` further right. -/
theorem resultIdx?_columns (d : ScatterDims ⟨2, ![R, C]⟩ ⟨1, ![1]⟩ ⟨2, ![R, n]⟩) (hd : IsColumnWrite d)
    (off : ℕ) (hoff : off + n ≤ C) (idx : IVec ⟨1, ![1]⟩ w) (hidx : ∀ k, (idx k).toInt = (off : ℤ))
    (j : (⟨2, ![R, n]⟩ : Shape).Idx) :
    d.resultIdx? j idx
      = some (ix2 (⟨(j 0).val, idx2_lt0 j⟩ : Fin R) (⟨off + (j 1).val, by have := idx2_lt1 j; omega⟩ : Fin C)) := by
  have h0 : d.start j idx (0 : Fin 2) + d.window j (0 : Fin 2) = ((j 0).val : ℤ) := by
    rw [start_row d hd, window_row d hd]; simp
  have h1 : d.start j idx (1 : Fin 2) + d.window j (1 : Fin 2) = ((off + (j 1).val : ℕ) : ℤ) := by
    rw [start_col d hd j idx off hidx, window_col d hd]; simp
  have l0 := idx2_lt0 j
  have l1 := idx2_lt1 j
  unfold ScatterDims.resultIdx?
  rw [dif_pos (Fin.forall_fin_two.2
    ⟨⟨by rw [h0]; omega, by rw [h0]; show ((j 0).val : ℤ) < (R : ℤ); omega⟩,
     ⟨by rw [h1]; omega, by rw [h1]; show ((off + (j 1).val : ℕ) : ℤ) < (C : ℤ); omega⟩⟩)]
  congr 1
  funext a
  revert a
  refine Fin.forall_fin_two.2 ⟨?_, ?_⟩
  · exact Fin.ext (by show (d.start j idx (0 : Fin 2) + d.window j (0 : Fin 2)).toNat = (j 0).val; rw [h0]; omega)
  · exact Fin.ext (by show (d.start j idx (1 : Fin 2) + d.window j (1 : Fin 2)).toNat = off + (j 1).val; rw [h1]; omega)

/-- Inside the column range the written block is read. -/
theorem scatter_columns_inside (d : ScatterDims ⟨2, ![R, C]⟩ ⟨1, ![1]⟩ ⟨2, ![R, n]⟩) (hd : IsColumnWrite d)
    (off : ℕ) (hoff : off + n ≤ C) (x : (⟨2, ![R, C]⟩ : Shape).Idx → α) (idx : IVec ⟨1, ![1]⟩ w)
    (hidx : ∀ k, (idx k).toInt = (off : ℤ)) (upd : (⟨2, ![R, n]⟩ : Shape).Idx → α) (r : Fin R) (c : Fin n) :
    Host.scatter d (fun _ b => b) x idx upd (ix2 r (⟨off + c.val, by have := c.isLt; omega⟩ : Fin C)) = upd (ix2 r c) := by
  refine scatter_set_of_hit d x idx upd _ (ix2 r c) ?_ ?_
  · rw [resultIdx?_columns d hd off hoff idx hidx]
    rfl
  · intro j' hj'
    rw [resultIdx?_columns d hd off hoff idx hidx] at hj'
    have e := Option.some.inj hj'
    have e0 : (j' 0).val = r.val := congrArg Fin.val (congrFun e (0 : Fin 2))
    have e1 : off + (j' 1).val = off + c.val := congrArg Fin.val (congrFun e (1 : Fin 2))
    funext a
    match a with
    | ⟨0, _⟩ => exact Fin.ext e0
    | ⟨1, _⟩ => exact Fin.ext (by show (j' 1).val = c.val; omega)

/-- Outside the column range the operand is read. -/
theorem scatter_columns_outside (d : ScatterDims ⟨2, ![R, C]⟩ ⟨1, ![1]⟩ ⟨2, ![R, n]⟩) (hd : IsColumnWrite d)
    (off : ℕ) (hoff : off + n ≤ C) (x : (⟨2, ![R, C]⟩ : Shape).Idx → α) (idx : IVec ⟨1, ![1]⟩ w)
    (hidx : ∀ k, (idx k).toInt = (off : ℤ)) (upd : (⟨2, ![R, n]⟩ : Shape).Idx → α) (r : Fin R) (c : Fin C)
    (hc : c.val < off ∨ off + n ≤ c.val) :
    Host.scatter d (fun _ b => b) x idx upd (ix2 r c) = x (ix2 r c) := by
  refine scatter_set_of_miss d x idx upd _ ?_
  intro j hj
  rw [resultIdx?_columns d hd off hoff idx hidx] at hj
  have e1 : off + (j 1).val = c.val := congrArg Fin.val (congrFun (Option.some.inj hj) (1 : Fin 2))
  have := idx2_lt1 j
  omega

end Columns

end Idealize.ShloMosaic.ScatterSet
-- ==== Proof.Glue.lean ====
/-
  The fused weight and bias the tiled program multiplies by.

  Before its one launch the tiled program builds a [256, 512] matrix by writing, into a matrix of
  zeros, the query weights into columns 0–31, then the key weights into columns 128–159, then the
  value weights into columns 256–511; and a [1, 512] row the same way from the three bias vectors
  (each first viewed as a [1, n] row). Rounding a weight to 16 bits is the identity on the extended
  reals. The three column ranges are disjoint, so reading the finished matrix at a column of one
  range passes through the later writes (which leave that column alone) down to the write that
  filled it: each column range of the fused matrix IS the corresponding weight array, and each
  lane range of the fused row IS the corresponding bias array.
-/
import proofs.«143943_j71717363909073_2_alg».proof.Proof.Gen.KernelIdeal.Frame
import proofs.«143943_j71717363909073_2_alg».proof.Proof.Spec
import proofs.«143943_j71717363909073_2_alg».proof.Proof.LibScatterSet
import Idealize.ShloMosaic.Lib.ValueLayout

noncomputable section

namespace Cert.RowAttention.Glue

open Cert.KernelIdeal Cert.KernelIdeal.Gen Idealize.ShloMosaic Idealize.ShloMosaic.TcCoe Idealize.SL.Sem Cert.RowAttention
open Idealize.ShloMosaic.ValueIdx Idealize.ShloMosaic.Tactic Idealize.ShloMosaic.ScatterSet

variable (m : (ℓ : Loc nD τ sig) → Buf (Elt Ideal) ℓ) (c : Dev nD)

/-- The start index of a write: the one word `v`, at every position of the length-1 index array. -/
abbrev startAt (v : BitVec 32) : IVec S1 32 := broadcastInDim S1 ![] bcast_S_S1 (constantI S_ 32 v)

theorem startAt_0 (k : S1.Idx) : (startAt 0#32 k).toInt = ((0 : ℕ) : ℤ) :=
  show (0#32 : BitVec 32).toInt = ((0 : ℕ) : ℤ) by decide
theorem startAt_128 (k : S1.Idx) : (startAt 128#32 k).toInt = ((128 : ℕ) : ℤ) :=
  show (128#32 : BitVec 32).toInt = ((128 : ℕ) : ℤ) by decide
theorem startAt_256 (k : S1.Idx) : (startAt 256#32 k).toInt = ((256 : ℕ) : ℤ) :=
  show (256#32 : BitVec 32).toInt = ((256 : ℕ) : ℤ) by decide

theorem colWrite_w32 : IsColumnWrite scatter_S256x512_S1_S256x32_01_n_1_0 := ⟨rfl, rfl, rfl, rfl⟩
theorem colWrite_w256 : IsColumnWrite scatter_S256x512_S1_S256x256_01_n_1_0 := ⟨rfl, rfl, rfl, rfl⟩
theorem colWrite_b32 : IsColumnWrite scatter_S1x512_S1_S1x32_01_n_1_0 := ⟨rfl, rfl, rfl, rfl⟩
theorem colWrite_b256 : IsColumnWrite scatter_S1x512_S1_S1x256_01_n_1_0 := ⟨rfl, rfl, rfl, rfl⟩

/-- The fused weight as the host operations build it: three writes into a matrix of zeros. -/
theorem weight_term : (V m c main_v9 : S256x512.Idx → EReal)
    = Host.scatter scatter_S256x512_S1_S256x256_01_n_1_0 (fun _ b => b)
        (Host.scatter scatter_S256x512_S1_S256x32_01_n_1_0 (fun _ b => b)
          (Host.scatter scatter_S256x512_S1_S256x32_01_n_1_0 (fun _ b => b)
            (broadcastInDim S256x512 ![] bcast_S_S256x512 (constant (F := Ideal) S_ .bf16 0x0000#16))
            (startAt 0#32)
            (truncf .bf16 (m ((c : Thread nD τ).loc main_arg1) : FVec Ideal S256x32 .f32) bitsLt_bf16_f32))
          (startAt 128#32)
          (truncf .bf16 (m ((c : Thread nD τ).loc main_arg3) : FVec Ideal S256x32 .f32) bitsLt_bf16_f32))
        (startAt 256#32)
        (truncf .bf16 (m ((c : Thread nD τ).loc main_arg5) : FVec Ideal S256x256 .f32) bitsLt_bf16_f32) := by
  dsimp only [Gen.V, Gen.hostOps0]
  after_results

/-- The fused bias as the host operations build it: three writes into a row of zeros. -/
theorem bias_term : (V m c main_v19 : S1x512.Idx → EReal)
    = Host.scatter scatter_S1x512_S1_S1x256_01_n_1_0 (fun _ b => b)
        (Host.scatter scatter_S1x512_S1_S1x32_01_n_1_0 (fun _ b => b)
          (Host.scatter scatter_S1x512_S1_S1x32_01_n_1_0 (fun _ b => b)
            (broadcastInDim S1x512 ![] bcast_S_S1x512 (constant (F := Ideal) S_ .f32 0x00000000#32))
            (startAt 0#32)
            (shapeCast S1x32 (m ((c : Thread nD τ).loc main_arg2) : FVec Ideal S32 .f32) shapeCasts_S32_S1x32))
          (startAt 128#32)
          (shapeCast S1x32 (m ((c : Thread nD τ).loc main_arg4) : FVec Ideal S32 .f32) shapeCasts_S32_S1x32))
        (startAt 256#32)
        (shapeCast S1x256 (m ((c : Thread nD τ).loc main_arg6) : FVec Ideal S256 .f32) shapeCasts_S256_S1x256) := by
  dsimp only [Gen.V, Gen.hostOps0]
  after_results_simp
  rfl

/-- Columns 0–31 of the fused weight are the query weights. -/
theorem weight_q : colsAt 0 32 (by norm_num) (V m c main_v9) = mat (m ((c : Thread nD τ).loc main_arg1)) := by
  funext k d
  have hd := d.isLt
  show (V m c main_v9 : S256x512.Idx → EReal) (ix2 k (⟨0 + d.val, by omega⟩ : Fin 512)) = _
  rw [weight_term]
  refine (scatter_columns_outside _ colWrite_w256 256 (by norm_num) _ _ startAt_256 _ k _ (Or.inl (by show 0 + d.val < 256; omega))).trans ?_
  refine (scatter_columns_outside _ colWrite_w32 128 (by norm_num) _ _ startAt_128 _ k _ (Or.inl (by show 0 + d.val < 128; omega))).trans ?_
  exact scatter_columns_inside _ colWrite_w32 0 (by norm_num) _ _ startAt_0 _ k d

/-- Columns 128–159 of the fused weight are the key weights. -/
theorem weight_k : colsAt 128 32 (by norm_num) (V m c main_v9) = mat (m ((c : Thread nD τ).loc main_arg3)) := by
  funext k d
  have hd := d.isLt
  show (V m c main_v9 : S256x512.Idx → EReal) (ix2 k (⟨128 + d.val, by omega⟩ : Fin 512)) = _
  rw [weight_term]
  refine (scatter_columns_outside _ colWrite_w256 256 (by norm_num) _ _ startAt_256 _ k _ (Or.inl (by show 128 + d.val < 256; omega))).trans ?_
  exact scatter_columns_inside _ colWrite_w32 128 (by norm_num) _ _ startAt_128 _ k d

/-- Columns 256–511 of the fused weight are the value weights. -/
theorem weight_v : colsAt 256 256 (by norm_num) (V m c main_v9) = mat (m ((c : Thread nD τ).loc main_arg5)) := by
  funext k d
  have hd := d.isLt
  show (V m c main_v9 : S256x512.Idx → EReal) (ix2 k (⟨256 + d.val, by omega⟩ : Fin 512)) = _
  rw [weight_term]
  exact scatter_columns_inside _ colWrite_w256 256 (by norm_num) _ _ startAt_256 _ k d

/-- Entries 0–31 of the fused bias are the query bias. -/
theorem bias_q : lanesAt 0 32 (by norm_num) (V m c main_v19) = vec (m ((c : Thread nD τ).loc main_arg2)) := by
  funext d
  have hd := d.isLt
  show (V m c main_v19 : S1x512.Idx → EReal) (ix2 (0 : Fin 1) (⟨0 + d.val, by omega⟩ : Fin 512)) = _
  rw [bias_term]
  refine (scatter_columns_outside _ colWrite_b256 256 (by norm_num) _ _ startAt_256 _ 0 _ (Or.inl (by show 0 + d.val < 256; omega))).trans ?_
  refine (scatter_columns_outside _ colWrite_b32 128 (by norm_num) _ _ startAt_128 _ 0 _ (Or.inl (by show 0 + d.val < 128; omega))).trans ?_
  refine (scatter_columns_inside _ colWrite_b32 0 (by norm_num) _ _ startAt_0 _ 0 d).trans ?_
  exact shapeCast_a_1a_apply _ _ 0 d

/-- Entries 128–159 of the fused bias are the key bias. -/
theorem bias_k : lanesAt 128 32 (by norm_num) (V m c main_v19) = vec (m ((c : Thread nD τ).loc main_arg4)) := by
  funext d
  have hd := d.isLt
  show (V m c main_v19 : S1x512.Idx → EReal) (ix2 (0 : Fin 1) (⟨128 + d.val, by omega⟩ : Fin 512)) = _
  rw [bias_term]
  refine (scatter_columns_outside _ colWrite_b256 256 (by norm_num) _ _ startAt_256 _ 0 _ (Or.inl (by show 128 + d.val < 256; omega))).trans ?_
  refine (scatter_columns_inside _ colWrite_b32 128 (by norm_num) _ _ startAt_128 _ 0 d).trans ?_
  exact shapeCast_a_1a_apply _ _ 0 d

/-- Entries 256–511 of the fused bias are the value bias. -/
theorem bias_v : lanesAt 256 256 (by norm_num) (V m c main_v19) = vec (m ((c : Thread nD τ).loc main_arg6)) := by
  funext d
  have hd := d.isLt
  show (V m c main_v19 : S1x512.Idx → EReal) (ix2 (0 : Fin 1) (⟨256 + d.val, by omega⟩ : Fin 512)) = _
  rw [bias_term]
  refine (scatter_columns_inside _ colWrite_b256 256 (by norm_num) _ _ startAt_256 _ 0 d).trans ?_
  exact shapeCast_a_1a_apply _ _ 0 d

end Cert.RowAttention.Glue

end
-- ==== Proof.Whole.lean ====
/-
  From tiles to the whole array.

  The grid has 16 × 4 points; point `(b, hb)` works on the tile of image rows `32·hb … 32·hb + 31`
  of batch entry `b`, reads the whole fused weight and bias at every point, and writes its result
  back to the same tile of the output array. So the element `(0, hl, w, c)` of the tile is the
  element `(b, 32·hb + hl, w, c)` of the arrays, the tile's row `hl` is the input's row
  `(b, 32·hb + hl)`, and what the point writes back is the tile of the specification `G`
  (`flushed_eq`). The 64 tiles cover the output array (row `h` of batch entry `b` lies in the tile
  of point `(b, h / 32)`), hence after the run the output array IS `G` of the argument arrays
  (`final`, `run`).
-/
import proofs.«143943_j71717363909073_2_alg».proof.Proof.Gen.KernelIdeal.Value
import proofs.«143943_j71717363909073_2_alg».proof.Proof.Spec
import proofs.«143943_j71717363909073_2_alg».proof.Proof.Body
import proofs.«143943_j71717363909073_2_alg».proof.Proof.Glue
import Idealize.ShloMosaic.Lib.ValueIdx
import Idealize.ShloMosaic.Lib.Pipeline.Value

noncomputable section

namespace Cert.RowAttention.Whole

open Cert.KernelIdeal Cert.KernelIdeal.Gen Idealize.ShloMosaic Idealize.ShloMosaic.TcCoe Idealize.SL.Sem
open Idealize.ShloMosaic.ValueIdx Cert.RowAttention
open Idealize.ShloMosaic.Pipeline (Dat)

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz2 : (![0, 0] : Fin 2 → Nat) = fun _ => 0 := funext fun a => by fin_cases a <;> rfl

/-- The specification at the argument arrays as launched. -/
abbrev Gm (c : Dev nD) : S16x128x128x256.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The index maps over the grid: the input tile and the output tile sit at the same block `(b, hb, 0, 0)`,
    `b ≤ 15`, `hb ≤ 3`; the fused weight and bias are always their one whole block. -/
theorem idx_facts : ∀ t : Fin cfg0.N,
    win0_0.index t (0 : Fin 4) = win0_3.index t (0 : Fin 4) ∧ win0_0.index t (1 : Fin 4) = win0_3.index t (1 : Fin 4)
    ∧ win0_0.index t (2 : Fin 4) = 0 ∧ win0_0.index t (3 : Fin 4) = 0
    ∧ win0_3.index t (2 : Fin 4) = 0 ∧ win0_3.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 4) ≤ 15 ∧ win0_3.index t (1 : Fin 4) ≤ 3 :=
  (by decide +kernel : ∀ t : Fin grid0.N, _)

/-- Every tile position `(b, hb)` is some point's. -/
theorem idx_onto : ∀ (q0 : Fin 16) (q1 : Fin 4), ∃ t : Fin cfg0.N, win0_3.index t = ![q0.val, q1.val, 0, 0] :=
  (by decide +kernel : ∀ (q0 : Fin 16) (q1 : Fin 4), ∃ t : Fin grid0.N, win0_3.index t = ![q0.val, q1.val, 0, 0])

/-! ## A tile's elements are the arrays' -/

/-- Element `(0, hl, w', k)` of the input tile at a point whose block is `(b, hb, 0, 0)` is element
    `(b, 32·hb + hl, w', k)` of the input array. -/
theorem tile_in (c : Dev nD) (t : Fin cfg0.N) (b : Fin 16) (hb : Fin 4)
    (e0 : win0_0.index t (0 : Fin 4) = b.val) (e1 : win0_0.index t (1 : Fin 4) = hb.val)
    (e2 : win0_0.index t (2 : Fin 4) = 0) (e3 : win0_0.index t (3 : Fin 4) = 0)
    (hl : Fin 32) (w' : Fin 128) (k : Fin 256) :
    iblk m c 0 t (ix4 (0 : Fin 1) hl w' k)
      = m ((c : Thread nD τ).loc main_arg0) (ix4 b (⟨32 * hb.val + hl.val, by have := hb.isLt; have := hl.isLt; omega⟩ : Fin 128) w' k) := by
  show V m c main_arg0 (((cfg0.win 0).blk t).view.emb (ix4 (0 : Fin 1) hl w' k)) = _
  rw [V_main_arg0]
  refine congrArg _ (funext fun a => Fin.ext ?_)
  match a with
  | ⟨0, _⟩ => show win0_0.index t (0 : Fin 4) * 1 + 1 * 0 = b.val; omega
  | ⟨1, _⟩ => show win0_0.index t (1 : Fin 4) * 32 + 1 * hl.val = 32 * hb.val + hl.val; omega
  | ⟨2, _⟩ => show win0_0.index t (2 : Fin 4) * 128 + 1 * w'.val = w'.val; omega
  | ⟨3, _⟩ => show win0_0.index t (3 : Fin 4) * 256 + 1 * k.val = k.val; omega

/-- The fused weight's block at any point is the whole fused weight. -/
theorem tile_weight (c : Dev nD) (t : Fin cfg0.N) (e0 : win0_1.index t (0 : Fin 2) = 0) (e1 : win0_1.index t (1 : Fin 2) = 0) :
    (iblk m c 1 t : S256x512.Idx → EReal) = V m c main_v9 := by
  funext y
  show V m c main_v9 (((cfg0.win 1).blk t).view.emb y) = V m c main_v9 y
  refine congrArg _ (funext fun a => Fin.ext ?_)
  match a with
  | ⟨0, _⟩ => show win0_1.index t (0 : Fin 2) * 256 + 1 * (y 0).val = (y 0).val; omega
  | ⟨1, _⟩ => show win0_1.index t (1 : Fin 2) * 512 + 1 * (y 1).val = (y 1).val; omega

/-- The fused bias's block at any point is the whole fused bias row. -/
theorem tile_bias (c : Dev nD) (t : Fin cfg0.N) (e0 : win0_2.index t (0 : Fin 2) = 0) (e1 : win0_2.index t (1 : Fin 2) = 0) :
    (iblk m c 2 t : S1x512.Idx → EReal) = V m c main_v19 := by
  funext y
  show V m c main_v19 (((cfg0.win 2).blk t).view.emb y) = V m c main_v19 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 512 + 1 * (y 1).val = (y 1).val; omega

/-! ## What a point writes back is its tile of the specification -/

theorem flushed_eq (c : Dev nD) (t : Fin cfg0.N) :
    (dats m 0 c).flushed 3 t = ((cfg0.win 3).blk t).view.read (Elt Ideal) (Gm m c) := by
  rw [Cert.KernelIdeal.Value.flushed3]
  unfold out0_3
  rw [View.canon_unit_zero hz4]
  simp only [View.ld_unit_zero (S := S1x32x128x256) hz4, View.ld_unit_zero (S := S256x512) hz2, View.ld_unit_zero (S := S1x512) hz2]
  obtain ⟨e0, e1, e2, e3, e4, e5, e6, e7, e8, e9, e10, e11⟩ := idx_facts t
  refine funext fun (j : S1x32x128x256.Idx) => ?_
  obtain ⟨u, hl, w, ch, rfl⟩ : ∃ (u : Fin 1) (hl : Fin 32) (w : Fin 128) (ch : Fin 256), j = ix4 u hl w ch :=
    ⟨j 0, j 1, j 2, j 3, eq_ix4 j⟩
  have hu : u = 0 := Fin.ext (by have := u.isLt; omega)
  subst hu
  let b : Fin 16 := ⟨win0_3.index t (0 : Fin 4), by omega⟩
  let hb : Fin 4 := ⟨win0_3.index t (1 : Fin 4), by omega⟩
  have hemb : ((cfg0.win 3).blk t).view.emb (ix4 (0 : Fin 1) hl w ch)
      = ix4 b (⟨32 * hb.val + hl.val, by have := hb.isLt; have := hl.isLt; omega⟩ : Fin 128) w ch := by
    refine funext fun a => Fin.ext ?_
    match a with
    | ⟨0, _⟩ => show win0_3.index t (0 : Fin 4) * 1 + 1 * 0 = win0_3.index t (0 : Fin 4); omega
    | ⟨1, _⟩ => show win0_3.index t (1 : Fin 4) * 32 + 1 * hl.val = 32 * win0_3.index t (1 : Fin 4) + hl.val; omega
    | ⟨2, _⟩ => show win0_3.index t (2 : Fin 4) * 128 + 1 * w.val = w.val; omega
    | ⟨3, _⟩ => show win0_3.index t (3 : Fin 4) * 256 + 1 * ch.val = ch.val; omega
  show k0_pay1 (F := Ideal) (iblk m c 0 t) (iblk m c 1 t) (iblk m c 2 t) (ix4 (0 : Fin 1) hl w ch)
    = Gm m c (((cfg0.win 3).blk t).view.emb (ix4 (0 : Fin 1) hl w ch))
  rw [hemb]
  unfold Gm
  rw [G_apply]
  refine (Tile.body_at (iblk m c 0 t) (iblk m c 1 t) (iblk m c 2 t) hl w ch).trans ?_
  have hrow : (fun (w' : Fin 128) (k : Fin 256) => iblk m c 0 t (ix4 (0 : Fin 1) hl w' k))
      = rowOf (m ((c : Thread nD τ).loc main_arg0)) b (⟨32 * hb.val + hl.val, by have := hb.isLt; have := hl.isLt; omega⟩ : Fin 128) :=
    funext fun w' => funext fun k => tile_in m c t b hb e0 e1 e2 e3 hl w' k
  rw [hrow, tile_weight m c t e6 e7, tile_bias m c t e8 e9, Glue.weight_q, Glue.weight_k, Glue.weight_v, Glue.bias_q, Glue.bias_k, Glue.bias_v]

/-! ## The tiles cover the output array -/

/-- An index of the output array lies in point `t`'s tile iff each coordinate lies in the tile's range on its axis. -/
theorem mem_blk (t : Fin cfg0.N) (i : S16x128x128x256.Idx) :
    i ∈ ((cfg0.win 3).blk t).view.set ↔ ∀ a : Fin 4, win0_3.index t a * S1x32x128x256.size a ≤ (i a).val
      ∧ (i a).val < win0_3.index t a * S1x32x128x256.size a + S1x32x128x256.size a := by
  show i ∈ ((View.whole main_v20).slice (win0_3.rect t)).set ↔ _
  rw [View.set_slice_whole, Rect.mem_set_unit]
  exact Iff.rfl

/-- Every index of the output array lies in the tile of the point `(b, h / 32)`. -/
theorem cover (i : S16x128x128x256.Idx) :
    ∃ t : Fin cfg0.N, (cfg0.win 3).flush t = true ∧ i ∈ ((cfg0.win 3).blk t).view.set := by
  have hi0 : (i 0).val < 16 := (i 0).isLt
  have hi1 : (i 1).val < 128 := (i 1).isLt
  have hi2 : (i 2).val < 128 := (i 2).isLt
  have hi3 : (i 3).val < 256 := (i 3).isLt
  obtain ⟨t, ht⟩ := idx_onto ⟨(i 0).val, hi0⟩ ⟨(i 1).val / 32, by omega⟩
  have q0 : win0_3.index t (0 : Fin 4) = (i 0).val := congrFun ht 0
  have q1 : win0_3.index t (1 : Fin 4) = (i 1).val / 32 := congrFun ht 1
  have q2 : win0_3.index t (2 : Fin 4) = 0 := congrFun ht 2
  have q3 : win0_3.index t (3 : Fin 4) = 0 := congrFun ht 3
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 32 ≤ (i 1).val ∧ (i 1).val < win0_3.index t (1 : Fin 4) * 32 + 32; omega
  | ⟨2, _⟩ => show win0_3.index t (2 : Fin 4) * 128 ≤ (i 2).val ∧ (i 2).val < win0_3.index t (2 : Fin 4) * 128 + 128; omega
  | ⟨3, _⟩ => show win0_3.index t (3 : Fin 4) * 256 ≤ (i 3).val ∧ (i 3).val < win0_3.index t (3 : Fin 4) * 256 + 256; omega

/-! ## The output array after the run -/

/-- After the run the output array is the specification of the argument arrays. -/
theorem final (c : Dev nD) : (dats m 0 c).arrAt 3 cfg0.N = Gm m c :=
  (dats m 0 c).arrAt_eq_of_cover 3 (Gm m c) (fun t _ => flushed_eq m c t) cover

/-- The tiled program's run: it terminates with the output array at the specification and the arguments unchanged. -/
theorem run : θ_run defs (onTc (τ := τ) (main (F := Ideal))) ⟨m, fun _ => 0, ρ⟩ fun r => ∀ c : Dev nD,
      r.2.mem ((c : Thread nD τ).loc main_v20) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.KernelIdeal.Value.run_blocks m ρ)

end Cert.RowAttention.Whole

end
-- ==== Proof.RefIsSpec.lean ====
/-
  The reference program computes the specification.

  The reference is a straight line of array operations: three affine maps of the input's channel
  vectors (a contraction over the 256 channels plus a bias spread over every pixel), the contraction
  of the query channels of one pixel against the key channels of another within a row, a softmax
  along the last axis (the row maximum, the exponential of the difference, the sum of the
  exponentials, the quotient), and the contraction of the weights against the value channels.

  Read at ONE result index `(b, h, w, ·)`, each operation is a sum, a fold of `max`, or a pointwise
  operation on its operands at indices that are again given by coordinates; chained from the
  arguments to the result these readings are, term by term, the formulas `proj`, `score`, `rowMax`,
  `expo`, `weight`, `rowAttn` of the specification for row `(b, h)`.

  Two steps are not mere re-indexing. The softmax takes the maximum of the folded row maximum with the
  fold's own starting value once more: a fold of `max` is at least its starting value, so this
  changes nothing (for ANY starting value). And the sum of the exponentials starts from the float word
  of zero, which is the number zero.
-/
import proofs.«143943_j71717363909073_2_alg».proof.Proof.Gen.ReferenceIdeal.Read
import proofs.«143943_j71717363909073_2_alg».proof.Proof.Spec

noncomputable section

namespace Cert.RowAttention.Ref

open Cert.ReferenceIdeal Cert.ReferenceIdeal.Read Idealize.ShloMosaic Idealize.ShloMosaic.ValueIdx Cert.RowAttention

/-! ## The index each operation reads its operands at, by coordinates

Every operation of the program reads its operands at an index computed from the result index. At a
result index given by its coordinates these are again indices given by coordinates. -/

theorem lidxQ (b : Fin 16) (h w : Fin 128) (d : Fin 32) (k : Fin 256) :
    lidx_main_v0 (ix4 b h w d) k = ix4 b h w k :=
  funext fun a => Fin.ext (by match a with | ⟨0, _⟩ => rfl | ⟨1, _⟩ => rfl | ⟨2, _⟩ => rfl | ⟨3, _⟩ => rfl)

theorem ridxQ (b : Fin 16) (h w : Fin 128) (d : Fin 32) (k : Fin 256) :
    ridx_main_v0 (ix4 b h w d) k = ix2 k d :=
  funext fun a => Fin.ext (by match a with | ⟨0, _⟩ => rfl | ⟨1, _⟩ => rfl)

theorem bidxQ (b : Fin 16) (h w : Fin 128) (d : Fin 32) :
    idx_main_v1 (idx_main_v2 (ix4 b h w d)) = ix1 d :=
  funext fun a => Fin.ext (by match a with | ⟨0, _⟩ => rfl)

theorem lidxK (b : Fin 16) (h w : Fin 128) (d : Fin 32) (k : Fin 256) :
    lidx_main_v4 (ix4 b h w d) k = ix4 b h w k :=
  funext fun a => Fin.ext (by match a with | ⟨0, _⟩ => rfl | ⟨1, _⟩ => rfl | ⟨2, _⟩ => rfl | ⟨3, _⟩ => rfl)

theorem ridxK (b : Fin 16) (h w : Fin 128) (d : Fin 32) (k : Fin 256) :
    ridx_main_v4 (ix4 b h w d) k = ix2 k d :=
  funext fun a => Fin.ext (by match a with | ⟨0, _⟩ => rfl | ⟨1, _⟩ => rfl)

theorem bidxK (b : Fin 16) (h w : Fin 128) (d : Fin 32) :
    idx_main_v5 (idx_main_v6 (ix4 b h w d)) = ix1 d :=
  funext fun a => Fin.ext (by match a with | ⟨0, _⟩ => rfl)

theorem lidxV (b : Fin 16) (h w : Fin 128) (d : Fin 256) (k : Fin 256) :
    lidx_main_v8 (ix4 b h w d) k = ix4 b h w k :=
  funext fun a => Fin.ext (by match a with | ⟨0, _⟩ => rfl | ⟨1, _⟩ => rfl | ⟨2, _⟩ => rfl | ⟨3, _⟩ => rfl)

theorem ridxV (b : Fin 16) (h w : Fin 128) (d : Fin 256) (k : Fin 256) :
    ridx_main_v8 (ix4 b h w d) k = ix2 k d :=
  funext fun a => Fin.ext (by match a with | ⟨0, _⟩ => rfl | ⟨1, _⟩ => rfl)

theorem bidxV (b : Fin 16) (h w : Fin 128) (d : Fin 256) :
    idx_main_v9 (idx_main_v10 (ix4 b h w d)) = ix1 d :=
  funext fun a => Fin.ext (by match a with | ⟨0, _⟩ => rfl)

theorem lidxS (b : Fin 16) (h w v : Fin 128) (k : Fin 32) :
    lidx_main_v12 (ix4 b h w v) k = ix4 b h w k :=
  funext fun a => Fin.ext (by match a with | ⟨0, _⟩ => rfl | ⟨1, _⟩ => rfl | ⟨2, _⟩ => rfl | ⟨3, _⟩ => rfl)

theorem ridxS (b : Fin 16) (h w v : Fin 128) (k : Fin 32) :
    ridx_main_v12 (ix4 b h w v) k = ix4 b h v k :=
  funext fun a => Fin.ext (by match a with | ⟨0, _⟩ => rfl | ⟨1, _⟩ => rfl | ⟨2, _⟩ => rfl | ⟨3, _⟩ => rfl)

theorem idxMaxBack (b : Fin 16) (h w v : Fin 128) :
    idx_main_v16 (idx_main_v17 (ix4 b h w v)) = ix3 b h w :=
  funext fun a => Fin.ext (by match a with | ⟨0, _⟩ => rfl | ⟨1, _⟩ => rfl | ⟨2, _⟩ => rfl)

theorem idxSum (b : Fin 16) (h w : Fin 128) (k : Fin 128) :
    idx_main_v20 (ix3 b h w) k = ix4 b h w k :=
  funext fun a => Fin.ext (by match a with | ⟨0, _⟩ => rfl | ⟨1, _⟩ => rfl | ⟨2, _⟩ => rfl | ⟨3, _⟩ => rfl)

theorem idxSumBack (b : Fin 16) (h w v : Fin 128) :
    idx_main_v21 (idx_main_v22 (ix4 b h w v)) = ix3 b h w :=
  funext fun a => Fin.ext (by match a with | ⟨0, _⟩ => rfl | ⟨1, _⟩ => rfl | ⟨2, _⟩ => rfl)

theorem lidxOut (b : Fin 16) (h w : Fin 128) (c : Fin 256) (k : Fin 128) :
    lidx_main_v24 (ix4 b h w c) k = ix4 b h w k :=
  funext fun a => Fin.ext (by match a with | ⟨0, _⟩ => rfl | ⟨1, _⟩ => rfl | ⟨2, _⟩ => rfl | ⟨3, _⟩ => rfl)

theorem ridxOut (b : Fin 16) (h w : Fin 128) (c : Fin 256) (k : Fin 128) :
    ridx_main_v24 (ix4 b h w c) k = ix4 b h k c :=
  funext fun a => Fin.ext (by match a with | ⟨0, _⟩ => rfl | ⟨1, _⟩ => rfl | ⟨2, _⟩ => rfl | ⟨3, _⟩ => rfl)

/-- The last axis of a [16, 128, 128, 128] array can be dropped, leaving [16, 128, 128]. -/
theorem dropLast : S16x128x128x128.Reduces [3] S16x128x128 := by decide

/-- The index over `(b, h, w)` with `k` inserted on the dropped axis is `(b, h, w, k)`. -/
theorem lift_at (b : Fin 16) (h w : Fin 128) (k : Fin 128) :
    dropLast.lift (ix3 b h w) k = ix4 b h w k :=
  funext fun a => Fin.ext (by match a with | ⟨0, _⟩ => rfl | ⟨1, _⟩ => rfl | ⟨2, _⟩ => rfl | ⟨3, _⟩ => rfl)

/-! ## The three affine maps -/

/-- The query channels: the product over the 256 input channels plus the bias. -/
theorem v3_at (x0 : (⟨S16x128x128x256, .f32⟩ : BufTy).Contents (Elt Ideal)) (x1 : (⟨S256x32, .f32⟩ : BufTy).Contents (Elt Ideal)) (x2 : (⟨S32, .f32⟩ : BufTy).Contents (Elt Ideal)) (b : Fin 16) (h w : Fin 128) (d : Fin 32) :
    val_main_v3 (F := Ideal) x0 x1 x2 (ix4 b h w d) = proj (rowOf x0 b h) (mat x1) (vec x2) w d := by
  rw [val_main_v3_apply, val_main_v0_apply, val_main_v2_apply, val_main_v1_apply, bidxQ]
  unfold proj
  refine congrArg (· + x2 (ix1 d)) (Finset.sum_congr rfl fun k _ => ?_)
  rw [lidxQ, ridxQ]

/-- The key channels. -/
theorem v7_at (x0 : (⟨S16x128x128x256, .f32⟩ : BufTy).Contents (Elt Ideal)) (x3 : (⟨S256x32, .f32⟩ : BufTy).Contents (Elt Ideal)) (x4 : (⟨S32, .f32⟩ : BufTy).Contents (Elt Ideal)) (b : Fin 16) (h w : Fin 128) (d : Fin 32) :
    val_main_v7 (F := Ideal) x0 x3 x4 (ix4 b h w d) = proj (rowOf x0 b h) (mat x3) (vec x4) w d := by
  rw [val_main_v7_apply, val_main_v4_apply, val_main_v6_apply, val_main_v5_apply, bidxK]
  unfold proj
  refine congrArg (· + x4 (ix1 d)) (Finset.sum_congr rfl fun k _ => ?_)
  rw [lidxK, ridxK]

/-- The value channels. -/
theorem v11_at (x0 : (⟨S16x128x128x256, .f32⟩ : BufTy).Contents (Elt Ideal)) (x5 : (⟨S256x256, .f32⟩ : BufTy).Contents (Elt Ideal)) (x6 : (⟨S256, .f32⟩ : BufTy).Contents (Elt Ideal)) (b : Fin 16) (h w : Fin 128) (d : Fin 256) :
    val_main_v11 (F := Ideal) x0 x5 x6 (ix4 b h w d) = proj (rowOf x0 b h) (mat x5) (vec x6) w d := by
  rw [val_main_v11_apply, val_main_v8_apply, val_main_v10_apply, val_main_v9_apply, bidxV]
  unfold proj
  refine congrArg (· + x6 (ix1 d)) (Finset.sum_congr rfl fun k _ => ?_)
  rw [lidxV, ridxV]

/-! ## Scores -/

/-- The score of pixel `w` against pixel `v` of row `(b, h)`: the contraction over the 32 channels. -/
theorem v12_at (x0 : (⟨S16x128x128x256, .f32⟩ : BufTy).Contents (Elt Ideal)) (x1 : (⟨S256x32, .f32⟩ : BufTy).Contents (Elt Ideal)) (x2 : (⟨S32, .f32⟩ : BufTy).Contents (Elt Ideal)) (x3 : (⟨S256x32, .f32⟩ : BufTy).Contents (Elt Ideal)) (x4 : (⟨S32, .f32⟩ : BufTy).Contents (Elt Ideal)) (b : Fin 16) (h w v : Fin 128) :
    val_main_v12 (F := Ideal) x0 x1 x2 x3 x4 (ix4 b h w v) = (score (proj (rowOf x0 b h) (mat x1) (vec x2)) (proj (rowOf x0 b h) (mat x3) (vec x4))) w v := by
  rw [val_main_v12_apply]
  unfold score
  refine Finset.sum_congr rfl fun k _ => ?_
  rw [lidxS, ridxS, v3_at, v7_at]

/-! ## The row maximum

The program folds `max` over the row from a starting value and then takes the maximum of the result
with that same starting value once more. A fold of `max` is at least its starting value, so the
second step changes nothing, whatever the starting value is. -/

theorem max_fold_self {n : ℕ} (lo : EReal) (f : Fin n → EReal) :
    max lo ((Finset.univ : Finset (Fin n)).fold max lo f) = (Finset.univ : Finset (Fin n)).fold max lo f :=
  max_eq_right ((Finset.le_fold_max lo).2 (Or.inl le_rfl))

theorem v15_at (x0 : (⟨S16x128x128x256, .f32⟩ : BufTy).Contents (Elt Ideal)) (x1 : (⟨S256x32, .f32⟩ : BufTy).Contents (Elt Ideal)) (x2 : (⟨S32, .f32⟩ : BufTy).Contents (Elt Ideal)) (x3 : (⟨S256x32, .f32⟩ : BufTy).Contents (Elt Ideal)) (x4 : (⟨S32, .f32⟩ : BufTy).Contents (Elt Ideal)) (b : Fin 16) (h w : Fin 128) :
    val_main_v15 (F := Ideal) x0 x1 x2 x3 x4 (ix3 b h w) = rowMax lo32 (score (proj (rowOf x0 b h) (mat x1) (vec x2)) (proj (rowOf x0 b h) (mat x3) (vec x4))) w := by
  rw [val_main_v15_apply, val_main_v14_apply, val_main_cst_0_apply]
  unfold val_main_v13
  rw [Host.reduce_eq_fold_single FloatOps.maximumf _ _ _ dropLast _ (ix3 b h w), val_main_cst_apply]
  refine (max_fold_self (n := 128) lo32 _).trans ?_
  unfold rowMax
  refine Finset.fold_congr fun k _ => ?_
  show val_main_v12 (F := Ideal) x0 x1 x2 x3 x4 (dropLast.lift (ix3 b h w) k) = _
  rw [lift_at, v12_at]

/-! ## Exponentials, their sum, the weights -/

theorem v19_at (x0 : (⟨S16x128x128x256, .f32⟩ : BufTy).Contents (Elt Ideal)) (x1 : (⟨S256x32, .f32⟩ : BufTy).Contents (Elt Ideal)) (x2 : (⟨S32, .f32⟩ : BufTy).Contents (Elt Ideal)) (x3 : (⟨S256x32, .f32⟩ : BufTy).Contents (Elt Ideal)) (x4 : (⟨S32, .f32⟩ : BufTy).Contents (Elt Ideal)) (b : Fin 16) (h w v : Fin 128) :
    val_main_v19 (F := Ideal) x0 x1 x2 x3 x4 (ix4 b h w v) = expo lo32 (score (proj (rowOf x0 b h) (mat x1) (vec x2)) (proj (rowOf x0 b h) (mat x3) (vec x4))) w v := by
  rw [val_main_v19_apply, val_main_v18_apply, val_main_v17_apply, val_main_v16_apply, idxMaxBack, v12_at, v15_at]
  rfl

/-- The sum starts from the float word of zero, which is the number zero. -/
theorem v20_at (x0 : (⟨S16x128x128x256, .f32⟩ : BufTy).Contents (Elt Ideal)) (x1 : (⟨S256x32, .f32⟩ : BufTy).Contents (Elt Ideal)) (x2 : (⟨S32, .f32⟩ : BufTy).Contents (Elt Ideal)) (x3 : (⟨S256x32, .f32⟩ : BufTy).Contents (Elt Ideal)) (x4 : (⟨S32, .f32⟩ : BufTy).Contents (Elt Ideal)) (b : Fin 16) (h w : Fin 128) :
    val_main_v20 (F := Ideal) x0 x1 x2 x3 x4 (ix3 b h w) = ∑ v : Fin 128, expo lo32 (score (proj (rowOf x0 b h) (mat x1) (vec x2)) (proj (rowOf x0 b h) (mat x3) (vec x4))) w v := by
  rw [val_main_v20_apply, val_main_cst_1_apply, Ideal.ofBits_def, Ideal.ofBits_zero_f32, zero_add]
  refine Finset.sum_congr rfl fun k _ => ?_
  rw [idxSum, v19_at]

theorem v23_at (x0 : (⟨S16x128x128x256, .f32⟩ : BufTy).Contents (Elt Ideal)) (x1 : (⟨S256x32, .f32⟩ : BufTy).Contents (Elt Ideal)) (x2 : (⟨S32, .f32⟩ : BufTy).Contents (Elt Ideal)) (x3 : (⟨S256x32, .f32⟩ : BufTy).Contents (Elt Ideal)) (x4 : (⟨S32, .f32⟩ : BufTy).Contents (Elt Ideal)) (b : Fin 16) (h w v : Fin 128) :
    val_main_v23 (F := Ideal) x0 x1 x2 x3 x4 (ix4 b h w v) = weight lo32 (score (proj (rowOf x0 b h) (mat x1) (vec x2)) (proj (rowOf x0 b h) (mat x3) (vec x4))) w v := by
  rw [val_main_v23_apply, val_main_v22_apply, val_main_v21_apply, idxSumBack, v19_at, v20_at]
  rfl

/-! ## The weighted sum of the value channels -/

theorem v24_at (x0 : (⟨S16x128x128x256, .f32⟩ : BufTy).Contents (Elt Ideal)) (x1 : (⟨S256x32, .f32⟩ : BufTy).Contents (Elt Ideal)) (x2 : (⟨S32, .f32⟩ : BufTy).Contents (Elt Ideal)) (x3 : (⟨S256x32, .f32⟩ : BufTy).Contents (Elt Ideal)) (x4 : (⟨S32, .f32⟩ : BufTy).Contents (Elt Ideal)) (x5 : (⟨S256x256, .f32⟩ : BufTy).Contents (Elt Ideal)) (x6 : (⟨S256, .f32⟩ : BufTy).Contents (Elt Ideal)) (b : Fin 16) (h w : Fin 128) (c : Fin 256) :
    val_main_v24 (F := Ideal) x0 x1 x2 x3 x4 x5 x6 (ix4 b h w c)
      = rowAttn lo32 (rowOf x0 b h) (mat x1) (vec x2) (mat x3) (vec x4) (mat x5) (vec x6) w c := by
  rw [val_main_v24_apply]
  unfold rowAttn
  refine Finset.sum_congr rfl fun k _ => ?_
  rw [lidxOut, ridxOut, v23_at, v11_at]

/-- The reference program's result is the specification. -/
theorem ref_eq (x0 : (⟨S16x128x128x256, .f32⟩ : BufTy).Contents (Elt Ideal)) (x1 : (⟨S256x32, .f32⟩ : BufTy).Contents (Elt Ideal)) (x2 : (⟨S32, .f32⟩ : BufTy).Contents (Elt Ideal)) (x3 : (⟨S256x32, .f32⟩ : BufTy).Contents (Elt Ideal)) (x4 : (⟨S32, .f32⟩ : BufTy).Contents (Elt Ideal)) (x5 : (⟨S256x256, .f32⟩ : BufTy).Contents (Elt Ideal)) (x6 : (⟨S256, .f32⟩ : BufTy).Contents (Elt Ideal)) :
    val_main_v24 (F := Ideal) x0 x1 x2 x3 x4 x5 x6 = G x0 x1 x2 x3 x4 x5 x6 := by
  funext i
  obtain ⟨b, h, w, c, rfl⟩ : ∃ (b : Fin 16) (h w : Fin 128) (c : Fin 256), i = ix4 b h w c :=
    ⟨i 0, i 1, i 2, i 3, eq_ix4 i⟩
  rw [v24_at, G_apply]

end Cert.RowAttention.Ref

end
-- ==== Proof.lean ====
/-
  Row softmax-attention with fused projections, tiled, against its plain reference: the claims.

  Both programs compute, for every image row `(b, h)` of a [16, 128, 128, 256] array, the softmax
  attention of the row's 128 pixels among themselves (`RowAttention.G`, Proof/Spec.lean): queries,
  keys and values are affine maps of the pixels' 256 channels, the scores are inner products of
  queries and keys, each score row is normalised by exp (· − max) / Σ exp (· − max), and the
  output is the weighted sum of the values.

  The tiled program first writes the three weight matrices into column ranges of one zero
  [256, 512] matrix and the three biases into one [1, 512] row (Proof/Glue.lean, over the general
  reading of a "set" scatter in Proof/LibScatterSet.lean), then at each of 16 × 4 grid points
  multiplies a tile of 32 rows by the fused matrix, cuts the product into queries, keys and values,
  and does the attention of each row of the tile (Proof/Stages.lean, TileProj.lean, TileSoftmax.lean,
  Body.lean); the tiles cover the output (Proof/Whole.lean). The reference does the same
  with three separate products and library softmax (Proof/RefIsSpec.lean). On the extended reals
  rounding to a shorter float format is the identity and sums and maxima do not depend on their
  order, so both results are `G` of the arguments; no step uses that the inputs are finite.

  The three frame claims are the generated frame runs (the reference's is its generated run with
  the result dropped); the idealised kernel is the kernel's own text, so `preserves` has nothing
  to show.
-/
import proofs.«143943_j71717363909073_2_alg».proof.Defs
import proofs.«143943_j71717363909073_2_alg».proof.Proof.Gen.Kernel
import proofs.«143943_j71717363909073_2_alg».proof.Proof.Gen.Kernel.Skeleton
import proofs.«143943_j71717363909073_2_alg».proof.Proof.Gen.Kernel.Launch
import proofs.«143943_j71717363909073_2_alg».proof.Proof.Gen.Kernel.Points
import proofs.«143943_j71717363909073_2_alg».proof.Proof.Gen.Kernel.Frame
import proofs.«143943_j71717363909073_2_alg».proof.Proof.Gen.KernelIdeal
import proofs.«143943_j71717363909073_2_alg».proof.Proof.Gen.KernelIdeal.Skeleton
import proofs.«143943_j71717363909073_2_alg».proof.Proof.Gen.KernelIdeal.Launch
import proofs.«143943_j71717363909073_2_alg».proof.Proof.Gen.KernelIdeal.Points
import proofs.«143943_j71717363909073_2_alg».proof.Proof.Gen.KernelIdeal.Frame
import proofs.«143943_j71717363909073_2_alg».proof.Proof.Gen.ReferenceIdeal
import proofs.«143943_j71717363909073_2_alg».proof.Proof.Gen.Pre_finite_inputs
import proofs.«143943_j71717363909073_2_alg».proof.Proof.Gen.KernelIdeal.Value
import proofs.«143943_j71717363909073_2_alg».proof.Proof.Gen.ReferenceIdeal.Run
import proofs.«143943_j71717363909073_2_alg».proof.Proof.Gen.ReferenceIdeal.Read
import proofs.«143943_j71717363909073_2_alg».proof.Proof.Whole
import proofs.«143943_j71717363909073_2_alg».proof.Proof.RefIsSpec
import Idealize.ShloMosaic.Adequacy
import Idealize.ShloMosaic.Init

noncomputable section

namespace Cert.Proof

open Idealize.ShloMosaic Idealize.ShloMosaic.TcCoe Idealize.SL.Sem Cert.Kernel

/-- The tiled program runs and leaves its arguments as they were. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference runs and leaves its arguments as they were: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealised kernel is the kernel's own text: no rewrite to account for. -/
theorem preserves : Cert.preserves_Kernel_KernelIdeal := trivial

/-- From memories agreeing on the arguments both programs end with the output array at the
    attention `G` of the arguments: the tiled one by its tiles (`Whole.run`), the reference because its
    composed term is `G` (`Ref.ref_eq`). -/
theorem algebraic : Cert.algebraic_KernelIdeal_ReferenceIdeal := by
  intro m ρ m' ρ' _ hagree
  refine ⟨fun c => Cert.RowAttention.Whole.Gm m c, Cert.RowAttention.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.RowAttention.Ref.ref_eq, (hagree c).1, (hagree c).2.1,
    (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
